-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x128x256 : Shape := ⟨4, ![64, 8, 128, 256]⟩
abbrev S128x256 : Shape := ⟨2, ![128, 256]⟩
abbrev S128x128 : Shape := ⟨2, ![128, 128]⟩
abbrev S128 : Shape := ⟨1, ![128]⟩
abbrev S_ : Shape := ⟨0, ![]⟩

class Facts : Prop where
  bcast_S_S64x8x128x256 : S_.BroadcastsInDim S64x8x128x256 (![] : Fin 0 → Fin S64x8x128x256.rank)
  reducesTo_S64x8x128x256_S_d0_1_2_3 : S64x8x128x256.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S64x8x128x256 .f32) (main_arg1 : FVec F S128x256 .f32) (main_arg2 : FVec F S128x256 .f32) (main_arg3 : FVec F S128x128 .f32) (main_arg4 : FVec F S128 .f32) (main_arg5 : FVec F S128x128 .f32) (main_arg6 : FVec F S128 .f32) : IVec S_ 1 :=
  let main_v0 : FVec F S64x8x128x256 .f32 := Host.absf main_arg0
  let main_cst : FVec F S_ .f32 := constant S_ .f32 0x7F800000#32
  let main_v1 : FVec F S64x8x128x256 .f32 := broadcastInDim S64x8x128x256 ![] bcast_S_S64x8x128x256 main_cst
  let main_v2 : IVec S64x8x128x256 1 := cmpf .olt main_v0 main_v1
  let main_c : IVec S_ 1 := constantI S_ 1 1#1
  let main_v3 : IVec S_ 1 := (fun x v => Host.reduce IntOp.andi x v reducesTo_S64x8x128x256_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S64x8x128x256 : Shape := ⟨4, ![64, 8, 128, 256]⟩
abbrev S128x256 : Shape := ⟨2, ![128, 256]⟩
abbrev S128x128 : Shape := ⟨2, ![128, 128]⟩
abbrev S128 : Shape := ⟨1, ![128]⟩
abbrev S512x128x256 : Shape := ⟨3, ![512, 128, 256]⟩
abbrev S_ : Shape := ⟨0, ![]⟩
abbrev S128x1 : Shape := ⟨2, ![128, 1]⟩
abbrev S32x128x256 : Shape := ⟨3, ![32, 128, 256]⟩
abbrev S1x128x256 : Shape := ⟨3, ![1, 128, 256]⟩
abbrev S1 : Shape := ⟨1, ![1]⟩
abbrev S1x1 : Shape := ⟨2, ![1, 1]⟩

abbrev nBuf : Space → Nat
  | .hbm => 32
  | .vmem => 10
  | .smem => 0
  | _ => 0

abbrev bufTy : (tb : Table) → Fin (tcTables nBuf tb) → BufTy
  | .hbm, ⟨0, _⟩ => ⟨S64x8x128x256, .f32⟩
  | .hbm, ⟨1, _⟩ => ⟨S128x256, .f32⟩
  | .hbm, ⟨2, _⟩ => ⟨S128x256, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S512x128x256, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S128x128, .bf16⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128x128, .i1⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S128x128, .bf16⟩
  | .hbm, ⟨28, _⟩ => ⟨S128x1, .f32⟩
  | .hbm, ⟨29, _⟩ => ⟨S128x1, .f32⟩
  | .hbm, ⟨30, _⟩ => ⟨S512x128x256, .f32⟩
  | .hbm, ⟨31, _⟩ => ⟨S64x8x128x256, .f32⟩
  | .local _ .vmem, ⟨0, _⟩ => ⟨S32x128x256, .f32⟩
  | .local _ .vmem, ⟨1, _⟩ => ⟨S32x128x256, .f32⟩
  | .local _ .vmem, ⟨2, _⟩ => ⟨S128x256, .f32⟩
  | .local _ .vmem, ⟨3, _⟩ => ⟨S128x256, .f32⟩
  | .local _ .vmem, ⟨4, _⟩ => ⟨S128x128, .bf16⟩
  | .local _ .vmem, ⟨5, _⟩ => ⟨S128x1, .f32⟩
  | .local _ .vmem, ⟨6, _⟩ => ⟨S128x128, .bf16⟩
  | .local _ .vmem, ⟨7, _⟩ => ⟨S128x1, .f32⟩
  | .local _ .vmem, ⟨8, _⟩ => ⟨S32x128x256, .f32⟩
  | .local _ .vmem, ⟨9, _⟩ => ⟨S32x128x256, .f32⟩
  | _, _ => ⟨S64x8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_cst : Ref sig .tc := ⟨.hbm, 24, rfl⟩
abbrev main_call1_v5 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v14 : BitVec 32 := Scalar.addi c0_i32 c32_i32
  let c1_i32 : BitVec 32 := 1#32
  ⟨c0_i32, v14, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v15 : Index := Scalar.indexCast arg9
  let c0_12 : Index := 0#32
  let c0_13 : Index := 0#32
  ![v15.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x8x128x256_S512x128x256 : S64x8x128x256.ShapeCasts S512x128x256
  bcast_S_S128x128 : S_.BroadcastsInDim S128x128 (![] : Fin 0 → Fin S128x128.rank)
  bitsLt_bf16_f32 : FTy.bits .bf16 < FTy.bits .f32
  shapeCasts_S128_S128x1 : S128.ShapeCasts S128x1
  inb_S128x256_S128x256_0_0 : ∀ a, (![0, 0] : Fin 2 → Nat) a + S128x256.size a ≤ S128x256.size a
  h_S128x256 : 0 < S128x256.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x256 : S128x1.Broadcasts S128x256
  h_S1x128x256 : 0 < S1x128x256.numel
  shapeCasts_S1x128x256_S128x256 : S1x128x256.ShapeCasts S128x256
  reduces_S128x256_S128 : S128x256.Reduces [1] S128
  reduces_S128x1_S1 : S128x1.Reduces [0] S1
  shapeCasts_S1_S1x1 : S1.ShapeCasts S1x1
  broadcasts_S1x1_S128x256 : S1x1.Broadcasts S128x256
  shapeCasts_S128x256_S1x128x256 : S128x256.ShapeCasts S1x128x256
  shapeCasts_S512x128x256_S64x8x128x256 : S512x128x256.ShapeCasts S64x8x128x256
  dot_S128x128_S128x256_S128x256_1_0_0_1_n_n_wf : DotDims.WF S128x128 S128x256 S128x256 [1] [0] [0] [1] [] []
  hrank0 : 0 < grid0.rank
  k0_t1_ok : k0_t1_loop.OK
  k0_off1_inb : ∀ k0_t1 : Fin k0_t1_loop.trips, ∀ a, (k0_off1 k0_t1) a + S1x128x256.size a ≤ S32x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x256.size a ≤ S512x128x256.size a
  hwx0_0 : ∀ i : grid0.Coords, EltTy.bits .f32 = 32 ∨ (Rect.block (s := S512x128x256) S32x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128x256.size a ≤ S512x128x256.size a
  hwx0_7 : ∀ i : grid0.Coords, EltTy.bits .f32 = 32 ∨ (Rect.block (s := S512x128x256) S32x128x256.size (cc0_transform_7 i) (hinb0_7 i)).WholeWords (EltTy.packing .f32)

variable [Facts₀]

def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf

abbrev win0_0 : Pipeline.Window sig grid0 :=
  Pipeline.Window.ofSpec (Memref.whole main_v0) S32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S32x128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x8x128x256 : Shape := ⟨4, ![64, 8, 128, 256]⟩
abbrev S128x256 : Shape := ⟨2, ![128, 256]⟩
abbrev S128x128 : Shape := ⟨2, ![128, 128]⟩
abbrev S128 : Shape := ⟨1, ![128]⟩
abbrev S_ : Shape := ⟨0, ![]⟩
abbrev S64x8 : Shape := ⟨2, ![64, 8]⟩
abbrev S64x8x1x1 : Shape := ⟨4, ![64, 8, 1, 1]⟩
abbrev S1x1x128x256 : Shape := ⟨4, ![1, 1, 128, 256]⟩
abbrev S64x8x256x128 : Shape := ⟨4, ![64, 8, 256, 128]⟩
abbrev S1x1x1x128 : Shape := ⟨4, ![1, 1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S64x8x128x256, .f32⟩
  | .hbm, ⟨1, _⟩ => ⟨S128x256, .f32⟩
  | .hbm, ⟨2, _⟩ => ⟨S128x256, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S64x8, .f32⟩
  | .hbm, ⟨9, _⟩ => ⟨S64x8x1x1, .f32⟩
  | .hbm, ⟨10, _⟩ => ⟨S_, .f32⟩
  | .hbm, ⟨11, _⟩ => ⟨S64x8x1x1, .f32⟩
  | .hbm, ⟨12, _⟩ => ⟨S64x8x1x1, .f32⟩
  | .hbm, ⟨13, _⟩ => ⟨S64x8x128x256, .f32⟩
  | .hbm, ⟨14, _⟩ => ⟨S64x8x128x256, .f32⟩
  | .hbm, ⟨15, _⟩ => ⟨S64x8x128x256, .f32⟩
  | .hbm, ⟨16, _⟩ => ⟨S_, .f32⟩
  | .hbm, ⟨17, _⟩ => ⟨S64x8, .f32⟩
  | .hbm, ⟨18, _⟩ => ⟨S64x8x1x1, .f32⟩
  | .hbm, ⟨19, _⟩ => ⟨S_, .f32⟩
  | .hbm, ⟨20, _⟩ => ⟨S64x8x1x1, .f32⟩
  | .hbm, ⟨21, _⟩ => ⟨S64x8x1x1, .f32⟩
  | .hbm, ⟨22, _⟩ => ⟨S64x8x128x256, .f32⟩
  | .hbm, ⟨23, _⟩ => ⟨S64x8x128x256, .f32⟩
  | .hbm, ⟨24, _⟩ => ⟨S_, .f32⟩
  | .hbm, ⟨25, _⟩ => ⟨S64x8x1x1, .f32⟩
  | .hbm, ⟨26, _⟩ => ⟨S64x8x1x1, .f32⟩
  | .hbm, ⟨27, _⟩ => ⟨S64x8x1x1, .f32⟩
  | .hbm, ⟨28, _⟩ => ⟨S64x8x128x256, .f32⟩
  | .hbm, ⟨29, _⟩ => ⟨S64x8x128x256, .f32⟩
  | .hbm, ⟨30, _⟩ => ⟨S1x1x128x256, .f32⟩
  | .hbm, ⟨31, _⟩ => ⟨S64x8x128x256, .f32⟩
  | .hbm, ⟨32, _⟩ => ⟨S64x8x128x256, .f32⟩
  | .hbm, ⟨33, _⟩ => ⟨S1x1x128x256, .f32⟩
  | .hbm, ⟨34, _⟩ => ⟨S64x8x128x256, .f32⟩
  | .hbm, ⟨35, _⟩ => ⟨S64x8x128x256, .f32⟩
  | .hbm, ⟨36, _⟩ => ⟨S64x8x256x128, .f32⟩
  | .hbm, ⟨37, _⟩ => ⟨S128x128, .i32⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S_, .f32⟩
  | .hbm, ⟨44, _⟩ => ⟨S128x128, .f32⟩
  | .hbm, ⟨45, _⟩ => ⟨S128x128, .f32⟩
  | .hbm, ⟨46, _⟩ => ⟨S128x128, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S_, .f32⟩
  | .hbm, ⟨53, _⟩ => ⟨S128x128, .f32⟩
  | .hbm, ⟨54, _⟩ => ⟨S128x128, .f32⟩
  | .hbm, ⟨55, _⟩ => ⟨S64x8x256x128, .f32⟩
  | .hbm, ⟨56, _⟩ => ⟨S1x1x1x128, .f32⟩
  | .hbm, ⟨57, _⟩ => ⟨S64x8x256x128, .f32⟩
  | .hbm, ⟨58, _⟩ => ⟨S64x8x256x128, .f32⟩
  | .hbm, ⟨59, _⟩ => ⟨S_, .f32⟩
  | .hbm, ⟨60, _⟩ => ⟨S64x8x256x128, .f32⟩
  | .hbm, ⟨61, _⟩ => ⟨S64x8x256x128, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S64x8x256x128, .f32⟩
  | .hbm, ⟨66, _⟩ => ⟨S64x8x256x128, .f32⟩
  | .hbm, ⟨67, _⟩ => ⟨S_, .f32⟩
  | .hbm, ⟨68, _⟩ => ⟨S64x8x256x128, .f32⟩
  | .hbm, ⟨69, _⟩ => ⟨S64x8x256x128, .f32⟩
  | .hbm, ⟨70, _⟩ => ⟨S64x8x256x128, .f32⟩
  | .hbm, ⟨71, _⟩ => ⟨S_, .f32⟩
  | .hbm, ⟨72, _⟩ => ⟨S64x8x256x128, .f32⟩
  | .hbm, ⟨73, _⟩ => ⟨S64x8x256x128, .f32⟩
  | .hbm, ⟨74, _⟩ => ⟨S64x8x256x128, .f32⟩
  | .hbm, ⟨75, _⟩ => ⟨S1x1x1x128, .f32⟩
  | .hbm, ⟨76, _⟩ => ⟨S64x8x256x128, .f32⟩
  | .hbm, ⟨77, _⟩ => ⟨S64x8x256x128, .f32⟩
  | .hbm, ⟨78, _⟩ => ⟨S64x8x256x128, .f32⟩
  | .hbm, ⟨79, _⟩ => ⟨S64x8x128x256, .f32⟩
  | _, _ => ⟨S64x8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_cst : Ref sig .tc := ⟨.hbm, 43, rfl⟩
abbrev main_call0_v5 : Ref sig .tc := ⟨.hbm, 44, rfl⟩
abbrev main_v25 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_cst : Ref sig .tc := ⟨.hbm, 52, rfl⟩
abbrev main_call1_v5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_v31 : Ref sig .tc := ⟨.hbm, 60, rfl⟩
abbrev main_v32 : Ref sig .tc := ⟨.hbm, 61, rfl⟩
abbrev main_cst_5 : Ref sig .tc := ⟨.hbm, 62, rfl⟩
abbrev main_cst_6 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v33 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩

abbrev nD : Nat := 1
abbrev τ : Topo := Topo.v7x

variable {F : FTy → Type} [FloatOps F]

class Facts₀ : Prop where
  reducesTo_S64x8x128x256_S64x8_d2_3 : S64x8x128x256.ReducesTo [2, 3] S64x8
  h_S_ : 0 < S_.numel
  bcast_S64x8_S64x8x1x1_0_1 : S64x8.BroadcastsInDim S64x8x1x1 (![0, 1] : Fin 2 → Fin S64x8x1x1.rank)
  bcast_S_S64x8x1x1 : S_.BroadcastsInDim S64x8x1x1 (![] : Fin 0 → Fin S64x8x1x1.rank)
  bcast_S64x8x1x1_S64x8x128x256_0_1_2_3 : S64x8x1x1.BroadcastsInDim S64x8x128x256 (![0, 1, 2, 3] : Fin 4 → Fin S64x8x128x256.rank)
  bcast_S128x256_S1x1x128x256_2_3 : S128x256.BroadcastsInDim S1x1x128x256 (![2, 3] : Fin 2 → Fin S1x1x128x256.rank)
  bcast_S1x1x128x256_S64x8x128x256_0_1_2_3 : S1x1x128x256.BroadcastsInDim S64x8x128x256 (![0, 1, 2, 3] : Fin 4 → Fin S64x8x128x256.rank)
  transposes_S64x8x128x256_S64x8x256x128_0_1_3_2 : S64x8x128x256.Transposes [0, 1, 3, 2] S64x8x256x128
  bcast_S_S128x128 : S_.BroadcastsInDim S128x128 (![] : Fin 0 → Fin S128x128.rank)
  bcast_S128_S1x1x1x128_3 : S128.BroadcastsInDim S1x1x1x128 (![3] : Fin 1 → Fin S1x1x1x128.rank)
  bcast_S1x1x1x128_S64x8x256x128_0_1_2_3 : S1x1x1x128.BroadcastsInDim S64x8x256x128 (![0, 1, 2, 3] : Fin 4 → Fin S64x8x256x128.rank)
  bcast_S_S64x8x256x128 : S_.BroadcastsInDim S64x8x256x128 (![] : Fin 0 → Fin S64x8x256x128.rank)
  transposes_S64x8x256x128_S64x8x128x256_0_1_3_2 : S64x8x256x128.Transposes [0, 1, 3, 2] S64x8x128x256
  dot_S64x8x256x128_S128x128_S64x8x256x128_3_1_012_0_n_n_wf : DotDims.WF S64x8x256x128 S128x128 S64x8x256x128 [3] [1] [0, 1, 2] [0] [] []

variable [Facts₀]

def dot_S64x8x256x128_S128x128_S64x8x256x128_3_1_012_0_n_n : DotDims S64x8x256x128 S128x128 S64x8x256x128 where
  lhsContracting := [3]
  rhsContracting := [1]
  lhsNonContracting := [0, 1, 2]
  rhsNonContracting := [0]
  lhsBatch := []
  rhsBatch := []
  wf := dot_S64x8x256x128_S128x128_S64x8x256x128_3_1_012_0_n_n_wf

class Facts : Prop extends Facts₀ where

variable [Facts]
-- ==== Proof.RowPieces.lean ====
/-
  What one grid point leaves in its output block of 32 slabs: slab r of the block is the trip's arithmetic applied to slab r
  of the input block.

  The body is a loop of 32 trips; trip k loads slab k of the input block, computes, and stores the result over slab k of the
  output block. So the block is written by 32 stores, the k-th through the rectangle {k} × 128 × 256, each store's value the
  same function of the input block restricted to its rectangle; a buffer written by stores that are all restrictions of one
  function holds that function wherever a store covers, and the 32 rectangles cover the block.
-/
import proofs.«166694_j6347961664093_2_alg».proof.Proof.Gen.KernelIdeal.Frame
import Idealize.ShloMosaic.Lib.Pipeline.Value
import Idealize.ShloMosaic.Lib.ValueIdx

set_option maxRecDepth 16384

noncomputable section

namespace Cert.Mixer.Pieces

open Idealize.ShloMosaic Idealize.ShloMosaic.TcCoe Idealize.ShloMosaic.ValueIdx Idealize.SL.Sem Cert.KernelIdeal Cert.KernelIdeal.Gen

variable {F : FTy → Type} [FloatOps F]

/-- Slab r of a block of 32 slabs, as a 1 × 128 × 256 array. -/
def slabOf (x0 : Vec F S32x128x256 .f32) (r : Fin 32) : Vec F S1x128x256 .f32 :=
  fun j => x0 (ix3 r (⟨(j 1).val, (j 1).isLt⟩ : Fin 128) (⟨(j 2).val, (j 2).isLt⟩ : Fin 256))

/-- The trip's result on slab r of the input block, from the loaded weights. -/
def slabOut (x0 : Vec F S32x128x256 .f32) (v0 : Vec F S128x256 .f32) (v1 : Vec F S128x256 .f32) (v2 : Vec F S128x128 .bf16) (v4 : Vec F S128x128 .bf16) (v6 : Vec F S128x1 .f32) (v10 : Vec F S128x1 .f32) (r : Fin 32) : FVec F S1x128x256 .f32 :=
  k0_pay5 (k0_pay6 v0 v1 (k0_pay1 v2) (k0_pay2 v4) (k0_pay3 v6) (k0_pay4 v10) (slabOf x0 r))

/-- The whole output block: at (r, t, f), the result on slab r at (0, t, f). -/
def blockOut (x0 : Vec F S32x128x256 .f32) (v0 : Vec F S128x256 .f32) (v1 : Vec F S128x256 .f32) (v2 : Vec F S128x128 .bf16) (v4 : Vec F S128x128 .bf16) (v6 : Vec F S128x1 .f32) (v10 : Vec F S128x1 .f32) : Vec F S32x128x256 .f32 :=
  fun y => slabOut x0 v0 v1 v2 v4 v6 v10 (⟨(y 0).val, (y 0).isLt⟩ : Fin 32)
    (ix3 (0 : Fin 1) (⟨(y 1).val, (y 1).isLt⟩ : Fin 128) (⟨(y 2).val, (y 2).isLt⟩ : Fin 256))

theorem trips_le (k : Fin k0_t1_loop.trips) : k.val < 32 := Nat.lt_of_lt_of_le k.isLt k0_t1_abs.2.1

/-- Trip k's rectangle starts at (k, 0, 0). -/
theorem off0 (k : Fin k0_t1_loop.trips) : (k0_off1 k) 0 = k.val := by rw [k0_off1_eq k]; rfl
theorem off1 (k : Fin k0_t1_loop.trips) : (k0_off1 k) 1 = 0 := by rw [k0_off1_eq k]; rfl
theorem off2 (k : Fin k0_t1_loop.trips) : (k0_off1 k) 2 = 0 := by rw [k0_off1_eq k]; rfl

/-- A load through the rectangle {k} × 128 × 256 reads slab k. -/
theorem ld_slab (x0 : Vec F S32x128x256 .f32) (k : Fin k0_t1_loop.trips) :
    View.ld x0 (Rect.unit (s := S32x128x256) (k0_off1 k) S1x128x256.size (k0_off1_inb k)) = slabOf x0 ⟨k.val, trips_le k⟩ := by
  funext j
  show x0 ((Rect.unit (s := S32x128x256) (k0_off1 k) S1x128x256.size (k0_off1_inb k)).emb j) = _
  unfold slabOf
  refine congrArg x0 (funext fun a => Fin.ext ?_)
  have o0 := off0 k
  have o1 := off1 k
  have o2 := off2 k
  match a with
  | ⟨0, _⟩ =>
    show (k0_off1 k) 0 + 1 * (j 0).val = k.val
    have : (j 0).val < 1 := (j 0).isLt
    omega
  | ⟨1, _⟩ =>
    show (k0_off1 k) 1 + 1 * (j 1).val = (j 1).val
    omega
  | ⟨2, _⟩ =>
    show (k0_off1 k) 2 + 1 * (j 2).val = (j 2).val
    omega

/-- Trip k stores, through the rectangle {k} × 128 × 256, the result on slab k of what the input buffer holds (the one place
    where the trip's definition is opened). -/
theorem trip_piece (𝒱 : Variants) (c : Dev nD) (bd : Option 𝒱.V) (i : grid0.Coords) (arg1 : Memref sig .tc .vmem S32x128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1 .f32) (harg5 : arg5.IsWhole) (arg6 : Memref sig .tc .vmem S128x128 .bf16) (harg6 : arg6.IsWhole) (arg7 : Memref sig .tc .vmem S128x1 .f32) (harg7 : arg7.IsWhole) (arg8 : Memref sig .tc .vmem S32x128x256 .f32) (harg8 : arg8.IsWhole) (v0 : Vec F S128x256 .f32) (v1 : Vec F S128x256 .f32) (v2 : Vec F S128x128 .bf16) (v4 : Vec F S128x128 .bf16) (v6 : Vec F S128x1 .f32) (v10 : Vec F S128x1 .f32)
    (X_arg1 : BufTy.Contents (Elt F) arg1.view.ty) (k : Fin k0_t1_loop.trips) :
    tripL_k0_t1 (F := F) 𝒱 c bd i arg1 harg1 arg2 harg2 arg3 harg3 arg4 harg4 arg5 harg5 arg6 harg6 arg7 harg7 arg8 harg8 v0 v1 v2 v4 v6 v10 X_arg1 k
      = [⟨Rect.unit (s := S32x128x256) (k0_off1 k) S1x128x256.size (k0_off1_inb k),
          slabOut (View.read (Elt F) arg1.view X_arg1) v0 v1 v2 v4 v6 v10 ⟨k.val, trips_le k⟩⟩] := by
  unfold tripL_k0_t1
  unfold trip_k0_t1
  dsimp only
  unfold trip_k0_t1.sl.r slabOut
  rw [View.readAt_eq_ld, ld_slab]

/-- Every store of the first n trips is a restriction of the one block function. -/
theorem pieces_restrict (𝒱 : Variants) (c : Dev nD) (bd : Option 𝒱.V) (i : grid0.Coords) (arg1 : Memref sig .tc .vmem S32x128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1 .f32) (harg5 : arg5.IsWhole) (arg6 : Memref sig .tc .vmem S128x128 .bf16) (harg6 : arg6.IsWhole) (arg7 : Memref sig .tc .vmem S128x1 .f32) (harg7 : arg7.IsWhole) (arg8 : Memref sig .tc .vmem S32x128x256 .f32) (harg8 : arg8.IsWhole) (v0 : Vec F S128x256 .f32) (v1 : Vec F S128x256 .f32) (v2 : Vec F S128x128 .bf16) (v4 : Vec F S128x128 .bf16) (v6 : Vec F S128x1 .f32) (v10 : Vec F S128x1 .f32)
    (X_arg1 : BufTy.Contents (Elt F) arg1.view.ty) :
    ∀ n : ℕ, ∀ p ∈ pb_k0_t1 (F := F) 𝒱 c bd i arg1 harg1 arg2 harg2 arg3 harg3 arg4 harg4 arg5 harg5 arg6 harg6 arg7 harg7 arg8 harg8 v0 v1 v2 v4 v6 v10 X_arg1 n,
      ∀ x : p.1.shape.Idx, p.2 x = blockOut (View.read (Elt F) arg1.view X_arg1) v0 v1 v2 v4 v6 v10 (p.1.emb x)
  | 0, p, hp, _ => by rw [pb_k0_t1.eq_1] at hp; exact absurd hp List.not_mem_nil
  | n + 1, p, hp, x => by
    rw [pb_k0_t1.eq_2] at hp
    unfold pb_k0_t1Step at hp
    by_cases h : n < k0_t1_loop.trips
    · rw [dif_pos h, trip_piece, List.mem_append, List.mem_singleton] at hp
      rcases hp with rfl | hp
      · have o0 : (k0_off1 ⟨n, h⟩) 0 = n := off0 ⟨n, h⟩
        have o1 := off1 ⟨n, h⟩
        have o2 := off2 ⟨n, h⟩
        unfold blockOut
        dsimp only
        have e0 : ((Rect.unit (s := S32x128x256) (k0_off1 ⟨n, h⟩) S1x128x256.size (k0_off1_inb ⟨n, h⟩)).emb x 0).val = n := by
          show (k0_off1 ⟨n, h⟩) 0 + 1 * (x 0).val = n
          have : (x 0).val < 1 := (x 0).isLt
          omega
        have e1 : ((Rect.unit (s := S32x128x256) (k0_off1 ⟨n, h⟩) S1x128x256.size (k0_off1_inb ⟨n, h⟩)).emb x 1).val = (x 1).val := by
          show (k0_off1 ⟨n, h⟩) 1 + 1 * (x 1).val = (x 1).val
          omega
        have e2 : ((Rect.unit (s := S32x128x256) (k0_off1 ⟨n, h⟩) S1x128x256.size (k0_off1_inb ⟨n, h⟩)).emb x 2).val = (x 2).val := by
          show (k0_off1 ⟨n, h⟩) 2 + 1 * (x 2).val = (x 2).val
          omega
        have er : (⟨((Rect.unit (s := S32x128x256) (k0_off1 ⟨n, h⟩) S1x128x256.size (k0_off1_inb ⟨n, h⟩)).emb x 0).val,
            ((Rect.unit (s := S32x128x256) (k0_off1 ⟨n, h⟩) S1x128x256.size (k0_off1_inb ⟨n, h⟩)).emb x 0).isLt⟩ : Fin 32) = ⟨n, trips_le ⟨n, h⟩⟩ :=
          Fin.ext e0
        rw [er]
        refine congrArg _ (funext fun a => Fin.ext ?_)
        match a with
        | ⟨0, _⟩ =>
          have : (x 0).val < 1 := (x 0).isLt
          show (x 0).val = 0
          omega
        | ⟨1, _⟩ => exact e1.symm
        | ⟨2, _⟩ => exact e2.symm
      · exact pieces_restrict 𝒱 c bd i arg1 harg1 arg2 harg2 arg3 harg3 arg4 harg4 arg5 harg5 arg6 harg6 arg7 harg7 arg8 harg8 v0 v1 v2 v4 v6 v10 X_arg1 n p hp x
    · rw [dif_neg h] at hp
      exact pieces_restrict 𝒱 c bd i arg1 harg1 arg2 harg2 arg3 harg3 arg4 harg4 arg5 harg5 arg6 harg6 arg7 harg7 arg8 harg8 v0 v1 v2 v4 v6 v10 X_arg1 n p hp x

theorem zeros2 : (![0, 0] : Fin 2 → ℕ) = fun _ => 0 := by funext a; fin_cases a <;> rfl

/-- What the body leaves in the output block at any point: the block function of the input block and the weights. -/
theorem out_eq (c : Dev nD) (i : grid0.Coords) (arg1 : Memref sig .tc .vmem S32x128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x128 .bf16) (harg4 : arg4.IsWhole) (arg5 : Memref sig .tc .vmem S128x1 .f32) (harg5 : arg5.IsWhole) (arg6 : Memref sig .tc .vmem S128x128 .bf16) (harg6 : arg6.IsWhole) (arg7 : Memref sig .tc .vmem S128x1 .f32) (harg7 : arg7.IsWhole) (arg8 : Memref sig .tc .vmem S32x128x256 .f32) (harg8 : arg8.IsWhole) (x0 : Vec F S32x128x256 .f32) (x1 : Vec F S128x256 .f32) (x2 : Vec F S128x256 .f32) (x3 : Vec F S128x128 .bf16) (x4 : Vec F S128x1 .f32) (x5 : Vec F S128x128 .bf16) (x6 : Vec F S128x1 .f32) :
    out0_A_7 c i arg1 harg1 arg2 harg2 arg3 harg3 arg4 harg4 arg5 harg5 arg6 harg6 arg7 harg7 arg8 harg8 x0 x1 x2 x3 x4 x5 x6 = blockOut x0 x1 x2 x3 x5 x4 x6 := by
  funext y
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  refine View.canon_apply_of_pieces (blockOut x0 x1 x2 x3 x5 x4 x6) _ ?_ y (cover0_A_7 c i arg1 harg1 arg2 harg2 arg3 harg3 arg4 harg4 arg5 harg5 arg6 harg6 arg7 harg7 arg8 harg8 x0 x1 x2 x3 x4 x5 x6 y)
  unfold kernelRun0_A
  dsimp only
  simp only [View.readAt_eq_ld, Memref.IsWhole.read_unread, View.ld_unit_zero (S := S128x256) zeros2,
    View.ld_unit_zero (S := S128x128) zeros2, View.ld_unit_zero (S := S128x1) zeros2]
  have hp := pieces_restrict (F := F) Variants.none c none i arg1 harg1 arg2 harg2 arg3 harg3 arg4 harg4 arg5 harg5 arg6 harg6 arg7 harg7 arg8 harg8 x1 x2 x3 x5 x4 x6
    (harg1.unread x0) (Scf.trips (0#32) (Scalar.addi 0#32 32#32) 1#32)
  rw [harg1.read_unread] at hp
  exact hp

end Cert.Mixer.Pieces

end
-- ==== Proof.MixerSpec.lean ====
/-
  One (128 × 256) slab of the token mixer, as a function on the extended reals, and the whole result over the
  (64, 8, 128, 256) array.

  A slab X (time t < 128, feature f < 256) is normalised over ALL of its 128·256 entries at once:
    mean X   = (Σ_t Σ_f X t f) · 2⁻¹⁵                                  (2¹⁵ = 128·256 entries)
    dev X    = X − mean X
    var X    = (Σ_t Σ_f (dev X t f)²) · 2⁻¹⁵
    norm X   = dev X · rsqrt (var X + ε) · g + β                        (g, β the affine weights, one per (t, f))
  and then mixed along TIME by two matrices that act on the left, with a hard-swish between them and a residual:
    mix M b Y t f = (Σ_k M t k · Y k f) + b t
    row X         = norm X + mix M₂ b₂ (hswish ∘ mix M₁ b₁ (norm X))
    hswish z      = z · min 6 (max 0 (z + 3)) · (1/6 as a float).
  The float literals stay the words both programs print; only 2⁻¹⁵ is ever evaluated (against the divisor 32768).
-/
import Idealize.ShloMosaic.PureOps.Ideal
import Idealize.ShloMosaic.Lib.ValueIdx

noncomputable section

namespace Cert.Mixer

open Idealize.ShloMosaic Idealize.ShloMosaic.ValueIdx

/-- 2⁻¹⁵, the reciprocal of the number of entries of a slab, as the float word. -/
abbrev invN : EReal := Ideal.ofBits .f32 0x38000000#32
/-- The variance's ε (the float nearest 10⁻⁵). -/
abbrev eps : EReal := Ideal.ofBits .f32 0x3727C5AC#32
abbrev c3 : EReal := Ideal.ofBits .f32 0x40400000#32
abbrev c0 : EReal := Ideal.ofBits .f32 0x00000000#32
abbrev c6 : EReal := Ideal.ofBits .f32 0x40C00000#32
/-- The float nearest 1/6. -/
abbrev sixth : EReal := Ideal.ofBits .f32 0x3E2AAAAB#32

/-- A slab: time × feature. -/
abbrev Slab := Fin 128 → Fin 256 → EReal

/-- The sum of all entries of a slab, time outermost. -/
def total (X : Slab) : EReal := ∑ t : Fin 128, ∑ f : Fin 256, X t f

def mean (X : Slab) : EReal := total X * invN

def dev (X : Slab) : Slab := fun t f => X t f - mean X

def var (X : Slab) : EReal := total (fun t f => dev X t f * dev X t f) * invN

/-- Layer normalisation over the whole slab, then the affine map. -/
def norm (X g β : Slab) : Slab := fun t f => dev X t f * Ideal.rsqrt (var X + eps) * g t f + β t f

def hswish (z : EReal) : EReal := z * min c6 (max c0 (z + c3)) * sixth

/-- Mixing along time: the matrix acts on the left of the slab; the bias is one number per output time. -/
def mix (M : Fin 128 → Fin 128 → EReal) (b : Fin 128 → EReal) (Y : Slab) : Slab :=
  fun t f => (∑ k : Fin 128, M t k * Y k f) + b t

/-- One slab of the result. -/
def row (X g β : Slab) (M₁ : Fin 128 → Fin 128 → EReal) (b₁ : Fin 128 → EReal)
    (M₂ : Fin 128 → Fin 128 → EReal) (b₂ : Fin 128 → EReal) : Slab :=
  fun t f => norm X g β t f + mix M₂ b₂ (fun k f' => hswish (mix M₁ b₁ (norm X g β) k f')) t f

abbrev SX : Shape := ⟨4, ![64, 8, 128, 256]⟩
abbrev SG : Shape := ⟨2, ![128, 256]⟩
abbrev SM : Shape := ⟨2, ![128, 128]⟩
abbrev SB : Shape := ⟨1, ![128]⟩

/-- The whole result: slab (b, c) of the input goes through `row` with the shared weights. -/
def result (x : SX.Idx → EReal) (g β : SG.Idx → EReal) (M₁ : SM.Idx → EReal) (b₁ : SB.Idx → EReal)
    (M₂ : SM.Idx → EReal) (b₂ : SB.Idx → EReal) : SX.Idx → EReal :=
  fun i => row (fun t f => x (ix4 (i 0) (i 1) t f)) (fun t f => g (ix2 t f)) (fun t f => β (ix2 t f))
    (fun s k => M₁ (ix2 s k)) (fun s => b₁ (ix1 s)) (fun s k => M₂ (ix2 s k)) (fun s => b₂ (ix1 s)) (i 2) (i 3)

end Cert.Mixer

end
-- ==== Proof.LibRowOps.lean ====
/-
  Row operations of a matrix, and of a stack of matrices, read at an index given by coordinates, at the ideal
  values (floats are extended reals, every operation exact).

  A sum or a maximum along the last axis, the "keep the reduced axis as a unit axis" reshaping that follows it, and the
  broadcast of that column back over the row are written in two spellings: the vector unit's
  (`multi_reduction`, `shape_cast` [n] → [n, 1], `broadcast` [n, 1] → [n, m]) on one matrix, and the host's
  (`reduce`, `broadcast_in_dim` [B, n] → [B, n, 1] → [B, n, m]) on a stack of B matrices. Each lemma reads one such
  operation at the coordinates (c, k), respectively (b, c, k): a row sum is the sum over the row's entries, a row
  maximum the fold of `max` over them from the initial value, the two layout operations read the operand at the
  row's coordinate. Read this way the two spellings are the same function of the matrix b of the stack.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.RowOps

open Idealize.ShloMosaic Idealize.ShloMosaic.ValueIdx

variable {B n m : Nat} {α : Type}

/-! ## The reduced index with the row's coordinate put back -/

/-- In a matrix reduced along its rows, row `c` with column `k` put back is the entry (c, k). -/
theorem lift_ix1 (h : (⟨2, ![n, m]⟩ : Shape).Reduces [1] ⟨1, ![n]⟩) (c : Fin n) (k : Fin m) :
    h.lift (ix1 c) k = ix2 c k := by
  funext a; apply Fin.ext; fin_cases a <;> rfl

/-- In a stack of matrices reduced along the rows, row (b, c) with column `k` put back is the entry (b, c, k). -/
theorem lift_ix2 (h : (⟨3, ![B, n, m]⟩ : Shape).Reduces [2] ⟨2, ![B, n]⟩) (b : Fin B) (c : Fin n) (k : Fin m) :
    h.lift (ix2 b c) k = ix3 b c k := by
  funext a; apply Fin.ext; fin_cases a <;> rfl

/-! ## Row sums -/

/-- The vector unit's sum along the rows of a matrix, from the zero accumulator, at row `c`: the sum of the row's entries. -/
theorem vec_rowSum (v : FVec Ideal ⟨2, ![n, m]⟩ .f32) (h : (⟨2, ![n, m]⟩ : Shape).Reduces [1] ⟨1, ![n]⟩)
    (hφ : FKind.Formats .f32) (hacc : (0x00000000#32 : BitVec 32) = 0x00000000#32) (c : Fin n) :
    multiReduction .add [1] ⟨1, ![n]⟩ v 0x00000000#32 h hφ hacc (ix1 c) = ∑ k : Fin m, v (ix2 c k) :=
  (Ideal.multiReduction_add_single v 0x00000000#32 h hφ hacc (ix1 c)).trans
    (Finset.sum_congr rfl fun k _ => congrArg v (lift_ix1 h c k))

/-- The host's sum along the rows of a stack of matrices, at row (b, c): the initial value plus the sum of the row's entries. -/
theorem host_rowSum (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduceAdd x init h' hu (ix2 b c) = init (Shape.Idx.first hu) + ∑ k : Fin m, x (ix3 b c k) := by
  simp only [Host.reduceAdd, Ideal.hostReduceAdd_def]
  rw [Ideal.hostReduceAdd_single h' h]
  exact congrArg (_ + ·) (Finset.sum_congr rfl fun k _ => congrArg x (lift_ix2 h b c k))

/-! ## Row maxima -/

/-- The vector unit's maximum along the rows of a matrix, from the accumulator -∞, at row `c`: the fold of `max` over the row. -/
theorem vec_rowMax (v : FVec Ideal ⟨2, ![n, m]⟩ .f32) (h : (⟨2, ![n, m]⟩ : Shape).Reduces [1] ⟨1, ![n]⟩)
    (hφ : FKind.Formats .f32) (hacc : (0xFF800000#32 : BitVec 32) = 0xFF800000#32) (c : Fin n) :
    multiReduction .maximumf [1] ⟨1, ![n]⟩ v 0xFF800000#32 h hφ hacc (ix1 c)
      = (Finset.univ : Finset (Fin m)).fold max (Ideal.ofBits .f32 0xFF800000#32) (fun k => v (ix2 c k)) :=
  (Ideal.multiReduction_maximumf_single v 0xFF800000#32 h hφ hacc (ix1 c)).trans
    (congrArg (fun f => Finset.fold max (Ideal.ofBits .f32 0xFF800000#32) f (Finset.univ : Finset (Fin m)))
      (funext fun k => congrArg v (lift_ix1 h c k)))

/-- The host's maximum along the rows of a stack of matrices, at row (b, c): the fold of `max` over the row from the initial value. -/
theorem host_rowMax (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduce FloatOps.maximumf x init h' hu (ix2 b c)
      = (Finset.univ : Finset (Fin m)).fold max (init (Shape.Idx.first hu)) (fun k => x (ix3 b c k)) := by
  rw [Host.reduce_eq_fold_single FloatOps.maximumf x init h' h hu]
  exact congrArg (fun f => Finset.fold max (init (Shape.Idx.first hu)) f (Finset.univ : Finset (Fin m)))
    (funext fun k => congrArg x (lift_ix2 h b c k))

/-! ## The reduced axis kept as a unit axis, and the column broadcast back over the rows -/

/-- A vector of `n` entries cast to a column reads, at (c, 0), entry `c`. -/
theorem vec_col (v : (⟨1, ![n]⟩ : Shape).Idx → α) (h : (⟨1, ![n]⟩ : Shape).ShapeCasts ⟨2, ![n, 1]⟩) (c : Fin n) (u : Fin 1) :
    shapeCast ⟨2, ![n, 1]⟩ v h (ix2 c u) = v (ix1 c) :=
  shapeCast_apply v h _ _ (by
    have hu : u.val = 0 := by omega
    rw [Shape.rowMajor_val_one, Shape.rowMajor_val_two]
    show c.val = c.val * 1 + u.val
    omega)

/-- A column broadcast over `m` columns reads, at (c, k), the column's entry `c`. -/
theorem vec_colBroadcast (w : (⟨2, ![n, 1]⟩ : Shape).Idx → α) (h : (⟨2, ![n, 1]⟩ : Shape).Broadcasts ⟨2, ![n, m]⟩)
    (c : Fin n) (k : Fin m) : broadcastTo ⟨2, ![n, m]⟩ w h (ix2 c k) = w (ix2 c (0 : Fin 1)) := by
  refine broadcastTo_apply w h (ix2 c k) (ix2 c (0 : Fin 1)) fun ax => ?_
  match ax with
  | ⟨0, _⟩ =>
    show c.val = if n = 1 then 0 else c.val
    split
    · have := c.isLt; omega
    · rfl
  | ⟨1, _⟩ =>
    show (0 : Nat) = if (1 : Nat) = 1 then 0 else k.val
    rw [if_pos rfl]

/-- The host's `broadcast_in_dim` of a [B, n] array to [B, n, 1] reads, at (b, c, 0), the entry (b, c). -/
theorem host_col (v : (⟨2, ![B, n]⟩ : Shape).Idx → α) (h : (⟨2, ![B, n]⟩ : Shape).BroadcastsInDim ⟨3, ![B, n, 1]⟩ ![0, 1])
    (b : Fin B) (c : Fin n) (u : Fin 1) : broadcastInDim ⟨3, ![B, n, 1]⟩ ![0, 1] h v (ix3 b c u) = v (ix2 b c) := by
  refine broadcastInDim_apply _ h v (ix3 b c u) (ix2 b c) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl

/-- The host's `broadcast_in_dim` of a [B, n, 1] array to [B, n, m] reads, at (b, c, k), the entry (b, c, 0). -/
theorem host_colBroadcast (w : (⟨3, ![B, n, 1]⟩ : Shape).Idx → α)
    (h : (⟨3, ![B, n, 1]⟩ : Shape).BroadcastsInDim ⟨3, ![B, n, m]⟩ ![0, 1, 2]) (b : Fin B) (c : Fin n) (k : Fin m) :
    broadcastInDim ⟨3, ![B, n, m]⟩ ![0, 1, 2] h w (ix3 b c k) = w (ix3 b c (0 : Fin 1)) := by
  refine broadcastInDim_apply _ h w (ix3 b c k) (ix3 b c (0 : Fin 1)) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl
  | ⟨2, _⟩ =>
    show (0 : Nat) = if (1 : Nat) = 1 then 0 else k.val
    rw [if_pos rfl]

/-! ## Pointwise operations in the host's and the vector unit's spelling: the same function of each entry -/

theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem host_sqrt_apply {s : Shape} {φ : FTy} (x : FVec Ideal s φ) (i : s.Idx) : Host.sqrt x i = Ideal.sqrt (x i) := rfl
theorem host_exp_apply {s : Shape} {φ : FTy} (x : FVec Ideal s φ) (i : s.Idx) : Host.exp x i = Ideal.exp (x i) := rfl
theorem host_divf_apply {s : Shape} {φ : FTy} (x y : FVec Ideal s φ) (i : s.Idx) : Host.divf x y i = Ideal.div (x i) (y i) := rfl
/-- A scalar constant of the vector unit is the extended real its bit pattern denotes. -/
theorem scalar_ofBits (φ : FTy) (w : BitVec φ.bits) : Scalar.ofBits (F := Ideal) φ w = Ideal.ofBits φ w := rfl

/-- The host's `broadcast_in_dim` of a rank-zero array reads its one entry everywhere. -/
theorem host_splat {t : Shape} (x : (⟨0, ![]⟩ : Shape).Idx → α) (h : (⟨0, ![]⟩ : Shape).BroadcastsInDim t ![]) (j : t.Idx) :
    broadcastInDim t ![] h x j = x ix0 :=
  broadcastInDim_apply _ h x j ix0 fun a => a.elim0

end Cert.Lib.RowOps

end
-- ==== Proof.RowValue.lean ====
/-
  The arithmetic of one trip of the kernel's row loop, read entry by entry at the ideal values: it is one slab of the
  token mixer (the specification's `row`).

  The vector unit spells the slab's total as a sum along each row (lanes), the 128 row sums kept as a column, a sum down that
  column, and the one number kept as a 1 × 1 matrix which is multiplied by 2⁻¹⁵ and broadcast back over the slab. Read at an entry
  each of these layout steps reads its operand at the evident place, so the total is Σ_t Σ_f of the slab. The two matrix
  products with a zero accumulator are plain sums over the contracted (time) axis; the two biases are columns broadcast along
  the features; a change of float format is the identity.
-/
import proofs.«166694_j6347961664093_2_alg».proof.Proof.Gen.KernelIdeal.Skeleton
import proofs.«166694_j6347961664093_2_alg».proof.Proof.MixerSpec
import proofs.«166694_j6347961664093_2_alg».proof.Proof.LibRowOps
import Idealize.ShloMosaic.Lib.ValueLayout
import Idealize.ShloMosaic.Lib.Pipeline.Value
import Idealize.ShloMosaic.PureOps.Ideal.Laws

noncomputable section

namespace Cert.Mixer.Kernel

open Idealize.ShloMosaic Idealize.ShloMosaic.ValueIdx Cert.KernelIdeal Cert.KernelIdeal.Gen Cert.Lib.RowOps

/-! ## Layout steps read at an entry -/

/-- In a column reduced to its one sum, entry k put back is (k, 0). -/
theorem lift_col {n : Nat} (h : (⟨2, ![n, 1]⟩ : Shape).Reduces [0] ⟨1, ![1]⟩) (k : Fin n) :
    h.lift (ix1 (0 : Fin 1)) k = ix2 k (0 : Fin 1) := by
  funext a; apply Fin.ext; fin_cases a <;> rfl

/-- The sum down a column of n entries, from the zero accumulator. -/
theorem vec_colSum {n : Nat} (v : FVec Ideal ⟨2, ![n, 1]⟩ .f32) (h : (⟨2, ![n, 1]⟩ : Shape).Reduces [0] ⟨1, ![1]⟩)
    (hφ : FKind.Formats .f32) (hacc : (0x00000000#32 : BitVec 32) = 0x00000000#32) :
    multiReduction .add [0] ⟨1, ![1]⟩ v 0x00000000#32 h hφ hacc (ix1 (0 : Fin 1)) = ∑ k : Fin n, v (ix2 k (0 : Fin 1)) :=
  (Ideal.multiReduction_add_single v 0x00000000#32 h hφ hacc (ix1 (0 : Fin 1))).trans
    (Finset.sum_congr rfl fun k _ => congrArg v (lift_col h k))

/-- A 1 × 1 matrix broadcast over an n × m matrix reads its one entry everywhere. -/
theorem vec_scalarBroadcast {n m : Nat} {α : Type} (w : (⟨2, ![1, 1]⟩ : Shape).Idx → α)
    (h : (⟨2, ![1, 1]⟩ : Shape).Broadcasts ⟨2, ![n, m]⟩) (t : Fin n) (f : Fin m) :
    broadcastTo ⟨2, ![n, m]⟩ w h (ix2 t f) = w (ix2 (0 : Fin 1) (0 : Fin 1)) := by
  refine broadcastTo_apply w h (ix2 t f) (ix2 (0 : Fin 1) (0 : Fin 1)) fun ax => ?_
  match ax with
  | ⟨0, _⟩ =>
    show (0 : Nat) = if (1 : Nat) = 1 then 0 else t.val
    rw [if_pos rfl]
  | ⟨1, _⟩ =>
    show (0 : Nat) = if (1 : Nat) = 1 then 0 else f.val
    rw [if_pos rfl]

/-! ## The trip's arithmetic, one named term per stage -/

/-- The total of a slab times 2⁻¹⁵, as the vector unit spells it: a 1 × 1 matrix. -/
def scaledTotal (w : FVec Ideal S128x256 .f32) : FVec Ideal S1x1 .f32 :=
  mulf (shapeCast S1x1 (multiReduction .add [0] S1 (shapeCast S128x1 (multiReduction .add [1] S128 w 0x00000000#32 reduces_S128x256_S128 (.inl rfl) rfl) shapeCasts_S128_S128x1) 0x00000000#32 reduces_S128x1_S1 (.inl rfl) rfl) shapeCasts_S1_S1x1)
    (broadcast S1x1 (Scalar.ofBits .f32 0x38000000#32))

/-- The slab minus its mean. -/
def centred (w : FVec Ideal S128x256 .f32) : FVec Ideal S128x256 .f32 :=
  subf w (broadcastTo S128x256 (scaledTotal w) broadcasts_S1x1_S128x256)

/-- The reciprocal standard deviation of a centred slab, a 1 × 1 matrix. -/
def invStd (d : FVec Ideal S128x256 .f32) : FVec Ideal S1x1 .f32 :=
  rsqrt (addf (scaledTotal (mulf d d)) (broadcast S1x1 (Scalar.ofBits .f32 0x3727C5AC#32)))

/-- The normalised slab with its affine map. -/
def normed (g β w : FVec Ideal S128x256 .f32) : FVec Ideal S128x256 .f32 :=
  addf (mulf (mulf (centred w) (broadcastTo S128x256 (invStd (centred w)) broadcasts_S1x1_S128x256)) g) β

/-- A matrix acting on the left of a slab, plus a bias slab. -/
def mixed (M : FVec Ideal S128x128 .bf16) (Y bb : FVec Ideal S128x256 .f32) : FVec Ideal S128x256 .f32 :=
  addf (matmul dot_S128x128_S128x256_S128x256_1_0_0_1_n_n none M (truncf .bf16 Y bitsLt_bf16_f32) (constant S128x256 .f32 0x00000000#32)) bb

/-- The hard swish, entry by entry. -/
def swished (z : FVec Ideal S128x256 .f32) : FVec Ideal S128x256 .f32 :=
  mulf (mulf z (minimumf (broadcast S128x256 (Scalar.ofBits .f32 0x40C00000#32))
    (maximumf (broadcast S128x256 (Scalar.ofBits .f32 0x00000000#32)) (addf z (broadcast S128x256 (Scalar.ofBits .f32 0x40400000#32))))))
    (broadcast S128x256 (Scalar.ofBits .f32 0x3E2AAAAB#32))

/-- The trip's result is these stages composed. -/
theorem pay6_stages (v0 v1 : Vec Ideal S128x256 .f32) (v3 v5 : FVec Ideal S128x128 .bf16) (v9 v13 : FVec Ideal S128x256 .f32)
    (v16 : Vec Ideal S1x128x256 .f32) :
    k0_pay6 v0 v1 v3 v5 v9 v13 v16
      = addf (normed v0 v1 (shapeCast S128x256 v16 shapeCasts_S1x128x256_S128x256))
          (mixed v5 (swished (mixed v3 (normed v0 v1 (shapeCast S128x256 v16 shapeCasts_S1x128x256_S128x256)) v9)) v13) := rfl

/-! ## Each stage at an entry -/

theorem scaledTotal_apply (w : FVec Ideal S128x256 .f32) :
    scaledTotal w (ix2 (0 : Fin 1) (0 : Fin 1)) = total (fun t f => w (ix2 t f)) * invN := by
  unfold scaledTotal total
  rw [mulf_apply, broadcast_apply, shapeCast_a_1a_apply, vec_colSum]
  refine congrArg (· * _) (Finset.sum_congr rfl fun t _ => ?_)
  rw [vec_col, vec_rowSum]

theorem centred_apply (w : FVec Ideal S128x256 .f32) (t : Fin 128) (f : Fin 256) :
    centred w (ix2 t f) = dev (fun t f => w (ix2 t f)) t f := by
  unfold centred dev mean
  rw [subf_apply, vec_scalarBroadcast, scaledTotal_apply]

theorem invStd_apply (w : FVec Ideal S128x256 .f32) :
    invStd (centred w) (ix2 (0 : Fin 1) (0 : Fin 1)) = Ideal.rsqrt (var (fun t f => w (ix2 t f)) + eps) := by
  unfold invStd var
  show Ideal.rsqrt (scaledTotal (mulf (centred w) (centred w)) (ix2 0 0) + Ideal.ofBits .f32 0x3727C5AC#32) = _
  rw [scaledTotal_apply]
  simp only [mulf_apply, centred_apply]

theorem normed_apply (g β w : FVec Ideal S128x256 .f32) (t : Fin 128) (f : Fin 256) :
    normed g β w (ix2 t f) = norm (fun t f => w (ix2 t f)) (fun t f => g (ix2 t f)) (fun t f => β (ix2 t f)) t f := by
  unfold normed norm
  rw [addf_apply, mulf_apply, mulf_apply, vec_scalarBroadcast, invStd_apply, centred_apply]

/-- The operand indices of the matrix product at an output entry and a contracted coordinate. -/
theorem lhs0 (i : S128x256.Idx) (q : dot_S128x128_S128x256_S128x256_1_0_0_1_n_n.contr.Idx) : (dot_S128x128_S128x256_S128x256_1_0_0_1_n_n.lhsIdx i q 0).val = (i 0).val := by
  unfold DotDims.lhsIdx
  rw [dif_neg (show ¬(0 : Fin S128x128.rank) ∈ dot_S128x128_S128x256_S128x256_1_0_0_1_n_n.lhsBatch by decide), dif_pos (show (0 : Fin S128x128.rank) ∈ dot_S128x128_S128x256_S128x256_1_0_0_1_n_n.lhsNonContracting by decide)]
  rfl
theorem lhs1 (i : S128x256.Idx) (q : dot_S128x128_S128x256_S128x256_1_0_0_1_n_n.contr.Idx) : (dot_S128x128_S128x256_S128x256_1_0_0_1_n_n.lhsIdx i q 1).val = (q ⟨0, by decide⟩).val :=
  dot_S128x128_S128x256_S128x256_1_0_0_1_n_n.lhsIdx_val_of_single rfl i q
theorem rhs0 (i : S128x256.Idx) (q : dot_S128x128_S128x256_S128x256_1_0_0_1_n_n.contr.Idx) : (dot_S128x128_S128x256_S128x256_1_0_0_1_n_n.rhsIdx i q 0).val = (q ⟨0, by decide⟩).val :=
  dot_S128x128_S128x256_S128x256_1_0_0_1_n_n.rhsIdx_val_of_single rfl i q
theorem rhs1 (i : S128x256.Idx) (q : dot_S128x128_S128x256_S128x256_1_0_0_1_n_n.contr.Idx) : (dot_S128x128_S128x256_S128x256_1_0_0_1_n_n.rhsIdx i q 1).val = (i 1).val := by
  unfold DotDims.rhsIdx
  rw [dif_neg (show ¬(1 : Fin S128x256.rank) ∈ dot_S128x128_S128x256_S128x256_1_0_0_1_n_n.rhsBatch by decide), dif_pos (show (1 : Fin S128x256.rank) ∈ dot_S128x128_S128x256_S128x256_1_0_0_1_n_n.rhsNonContracting by decide)]
  rfl

/-- The matrix unit's product into a zero accumulator, at (s, f): the sum over the contracted time axis. -/
theorem mm_apply (M : FVec Ideal S128x128 .bf16) (Y : FVec Ideal S128x256 .bf16) (s : Fin 128) (f : Fin 256) :
    matmul dot_S128x128_S128x256_S128x256_1_0_0_1_n_n none M Y (constant (F := Ideal) S128x256 .f32 0x00000000#32) (ix2 s f)
      = ∑ k : Fin 128, M (ix2 s k) * Y (ix2 k f) := by
  show FloatOps.matmul dot_S128x128_S128x256_S128x256_1_0_0_1_n_n none M Y (constant (F := Ideal) S128x256 .f32 0x00000000#32) (ix2 s f) = _
  rw [Ideal.matmul_constant_zero_apply, ← Equiv.sum_comp (contrEquiv1 dot_S128x128_S128x256_S128x256_1_0_0_1_n_n 128 rfl rfl).symm]
  refine Finset.sum_congr rfl fun k _ => ?_
  have hk := contrEquiv1_symm_val dot_S128x128_S128x256_S128x256_1_0_0_1_n_n 128 rfl rfl k
  have el : dot_S128x128_S128x256_S128x256_1_0_0_1_n_n.lhsIdx (ix2 s f) ((contrEquiv1 dot_S128x128_S128x256_S128x256_1_0_0_1_n_n 128 rfl rfl).symm k) = ix2 s k := funext fun a => Fin.ext (by
    match a with
    | ⟨0, _⟩ => exact lhs0 _ _
    | ⟨1, _⟩ => exact (lhs1 _ _).trans hk)
  have er : dot_S128x128_S128x256_S128x256_1_0_0_1_n_n.rhsIdx (ix2 s f) ((contrEquiv1 dot_S128x128_S128x256_S128x256_1_0_0_1_n_n 128 rfl rfl).symm k) = ix2 k f := funext fun a => Fin.ext (by
    match a with
    | ⟨0, _⟩ => exact (rhs0 _ _).trans hk
    | ⟨1, _⟩ => exact rhs1 _ _)
  rw [el, er]

theorem mixed_apply (M : FVec Ideal S128x128 .bf16) (Y bb : FVec Ideal S128x256 .f32) (s : Fin 128) (f : Fin 256) :
    mixed M Y bb (ix2 s f) = (∑ k : Fin 128, M (ix2 s k) * Y (ix2 k f)) + bb (ix2 s f) := by
  unfold mixed
  rw [addf_apply, mm_apply]
  rfl

theorem swished_apply (z : FVec Ideal S128x256 .f32) (i : S128x256.Idx) : swished z i = hswish (z i) := rfl

/-- A bias column broadcast along the features reads, at (s, f), the column's entry s. -/
theorem bias1_apply (v6 : Vec Ideal S128x1 .f32) (s : Fin 128) (f : Fin 256) : k0_pay3 v6 (ix2 s f) = v6 (ix2 s (0 : Fin 1)) := by
  unfold k0_pay3
  rw [vec_colBroadcast, shapeCast_self, shapeCast_self]

theorem bias2_apply (v10 : Vec Ideal S128x1 .f32) (s : Fin 128) (f : Fin 256) : k0_pay4 v10 (ix2 s f) = v10 (ix2 s (0 : Fin 1)) := by
  unfold k0_pay4
  rw [vec_colBroadcast, shapeCast_self, shapeCast_self]

theorem mat1_eq (v2 : Vec Ideal S128x128 .bf16) : k0_pay1 v2 = v2 := by
  unfold k0_pay1
  rw [shapeCast_self]

theorem mat2_eq (v4 : Vec Ideal S128x128 .bf16) : k0_pay2 v4 = v4 := by
  unfold k0_pay2
  rw [shapeCast_self]

/-- One trip's result at (t, f): the specification's row of the loaded slab, with the loaded weights. -/
theorem pay6_apply (v0 v1 : Vec Ideal S128x256 .f32) (v2 v4 : Vec Ideal S128x128 .bf16) (v6 v10 : Vec Ideal S128x1 .f32)
    (v16 : Vec Ideal S1x128x256 .f32) (t : Fin 128) (f : Fin 256) :
    k0_pay6 v0 v1 (k0_pay1 v2) (k0_pay2 v4) (k0_pay3 v6) (k0_pay4 v10) v16 (ix2 t f)
      = row (fun t f => v16 (ix3 (0 : Fin 1) t f)) (fun t f => v0 (ix2 t f)) (fun t f => v1 (ix2 t f))
          (fun s k => v2 (ix2 s k)) (fun s => v6 (ix2 s (0 : Fin 1))) (fun s k => v4 (ix2 s k)) (fun s => v10 (ix2 s (0 : Fin 1))) t f := by
  rw [pay6_stages, mat1_eq, mat2_eq]
  unfold row mix
  rw [addf_apply, normed_apply, mixed_apply, bias2_apply]
  simp only [swished_apply, mixed_apply, normed_apply, bias1_apply, shapeCast_1ab_ab_apply]

end Cert.Mixer.Kernel

end
-- ==== Proof.BlockEntry.lean ====
/-
  An entry of the output block, as the specification's row: entry (r, t, f) of the block a grid point writes is the
  row function of slab r of the input block — with the weight blocks as they were loaded — at (t, f).
-/
import proofs.«166694_j6347961664093_2_alg».proof.Proof.RowPieces
import proofs.«166694_j6347961664093_2_alg».proof.Proof.RowValue

noncomputable section

namespace Cert.Mixer.Kernel

open Idealize.ShloMosaic Idealize.ShloMosaic.ValueIdx Cert.KernelIdeal Cert.KernelIdeal.Gen

/-- The block function at (r, t, f), for any input block and weight blocks. -/
theorem block_entry (x0 : Vec Ideal S32x128x256 .f32) (x1 x2 : Vec Ideal S128x256 .f32) (x3 x5 : Vec Ideal S128x128 .bf16)
    (x4 x6 : Vec Ideal S128x1 .f32) (r : Fin 32) (t : Fin 128) (f : Fin 256) :
    Cert.Mixer.Pieces.blockOut x0 x1 x2 x3 x5 x4 x6 (ix3 r t f)
      = row (fun t f => x0 (ix3 r t f)) (fun t f => x1 (ix2 t f)) (fun t f => x2 (ix2 t f))
          (fun s k => x3 (ix2 s k)) (fun s => x4 (ix2 s (0 : Fin 1))) (fun s k => x5 (ix2 s k)) (fun s => x6 (ix2 s (0 : Fin 1))) t f := by
  unfold Cert.Mixer.Pieces.blockOut Cert.Mixer.Pieces.slabOut
  show k0_pay5 _ (ix3 (0 : Fin 1) t f) = _
  unfold k0_pay5
  rw [shapeCast_ab_1ab_apply, pay6_apply]
  rfl

/-- The same at any index of the block, by its three coordinates. -/
theorem block_entry_idx (x0 : Vec Ideal S32x128x256 .f32) (x1 x2 : Vec Ideal S128x256 .f32) (x3 x5 : Vec Ideal S128x128 .bf16)
    (x4 x6 : Vec Ideal S128x1 .f32) (y : S32x128x256.Idx) :
    Cert.Mixer.Pieces.blockOut x0 x1 x2 x3 x5 x4 x6 y
      = row (fun t f => x0 (ix3 (⟨(y 0).val, (y 0).isLt⟩ : Fin 32) t f)) (fun t f => x1 (ix2 t f)) (fun t f => x2 (ix2 t f))
          (fun s k => x3 (ix2 s k)) (fun s => x4 (ix2 s (0 : Fin 1))) (fun s k => x5 (ix2 s k)) (fun s => x6 (ix2 s (0 : Fin 1)))
          (⟨(y 1).val, (y 1).isLt⟩ : Fin 128) (⟨(y 2).val, (y 2).isLt⟩ : Fin 256) :=
  block_entry x0 x1 x2 x3 x5 x4 x6 (⟨(y 0).val, (y 0).isLt⟩ : Fin 32) (⟨(y 1).val, (y 1).isLt⟩ : Fin 128) (⟨(y 2).val, (y 2).isLt⟩ : Fin 256)

end Cert.Mixer.Kernel

end
-- ==== Proof.LibLeadAxes.lean ====
/-
  Merging and splitting the two leading axes of an array, in row-major order.

  An array of shape [B·C, n, m] and an array of shape [B, C, n, m] hold the same entries in the same row-major
  order: entry (b·C + c, t, f) of the first and entry (b, c, t, f) of the second both sit at position
  ((b·C + c)·n + t)·m + f. A cast between the two shapes keeps row-major positions, so it reads entry (b, c, t, f)
  of the one where the other has entry (b·C + c, t, f). The merged extent is a variable of its own, N = B·C, so
  that both lemmas apply to shapes whose extents are written as literals.
-/
import Idealize.ShloMosaic.Lib.ValueIdx
import Idealize.ShloMosaic.Lib.ValueLayout
import Idealize.ShloMosaic.Lib.Pipeline.Value

namespace Cert.Lib.LeadAxes

open Idealize.ShloMosaic Idealize.ShloMosaic.ValueIdx

variable {α : Type} {B C n m N : Nat}

/-- [N, n, m] with N = B·C cast to [B, C, n, m]: entry (b, c, t, f) is entry (b·C + c, t, f). -/
theorem shapeCast_split (hN : N = B * C) (X : (⟨3, ![N, n, m]⟩ : Shape).Idx → α)
    (h : (⟨3, ![N, n, m]⟩ : Shape).ShapeCasts ⟨4, ![B, C, n, m]⟩) (b : Fin B) (c : Fin C) (t : Fin n) (f : Fin m)
    (hbc : b.val * C + c.val < N) :
    shapeCast ⟨4, ![B, C, n, m]⟩ X h (ix4 b c t f) = X (ix3 (⟨b.val * C + c.val, hbc⟩ : Fin N) t f) :=
  shapeCast_apply X h _ _ (by
    rw [Shape.rowMajor_val_three, Shape.rowMajor_val_four]
    show ((b.val * C + c.val) * n + t.val) * m + f.val = ((b.val * C + c.val) * n + t.val) * m + f.val
    rfl)

/-- [B, C, n, m] cast to [N, n, m] with N = B·C: entry (b·C + c, t, f) is entry (b, c, t, f). -/
theorem shapeCast_merge (hN : N = B * C) (Y : (⟨4, ![B, C, n, m]⟩ : Shape).Idx → α)
    (h : (⟨4, ![B, C, n, m]⟩ : Shape).ShapeCasts ⟨3, ![N, n, m]⟩) (b : Fin B) (c : Fin C) (t : Fin n) (f : Fin m)
    (hbc : b.val * C + c.val < N) :
    shapeCast ⟨3, ![N, n, m]⟩ Y h (ix3 (⟨b.val * C + c.val, hbc⟩ : Fin N) t f) = Y (ix4 b c t f) :=
  shapeCast_apply Y h _ _ (by
    rw [Shape.rowMajor_val_four, Shape.rowMajor_val_three]
    show ((b.val * C + c.val) * n + t.val) * m + f.val = ((b.val * C + c.val) * n + t.val) * m + f.val
    rfl)

end Cert.Lib.LeadAxes
-- ==== Proof.KernelArray.lean ====
/-
  From blocks to the whole array, and the program's result.

  The grid has 16 points; point t takes slabs 32t … 32t + 31 of the input (as 512 slabs of 128 × 256) and writes the same
  slabs of the output; the six weight windows are the whole weight arrays at every point. An entry (r, t, f) of the block at
  a point is the row function of slab r of the block, so the output array holds, at slab s = 32·(point) + r, the row function
  of slab s of the input: one function of the arrays as the region finds them. The 16 blocks tile the 512 slabs.
  Before the region the program reshapes x to 512 slabs, masks W1 and W2 to their lower triangles (the same host function as
  the reference applies, carried unopened) and turns the two biases into columns; after it, it reshapes the result back.
-/
import proofs.«166694_j6347961664093_2_alg».proof.Proof.BlockEntry
import proofs.«166694_j6347961664093_2_alg».proof.Proof.Gen.KernelIdeal.Frame
import proofs.«166694_j6347961664093_2_alg».proof.Proof.Gen.ReferenceIdeal.Read
import proofs.«166694_j6347961664093_2_alg».proof.Proof.LibLeadAxes
import Idealize.ShloMosaic.Lib.StableHlo.Run
import Idealize.ShloMosaic.Lib.Pipeline.Value

set_option maxRecDepth 16384

noncomputable section

namespace Cert.Mixer.Kernel

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-! ## The arrays as the region finds them -/

theorem V_v0 (c : Dev nD) : (V m c main_v0 : S512x128x256.Idx → EReal)
    = shapeCast S512x128x256 (m ((c : Thread nD τ).loc main_arg0)) shapeCasts_S64x8x128x256_S512x128x256 := by
  dsimp only [V, V0]
  simp only [hostOps0, hostOps0_1, hostOps0_2, hostOps0_3, hostOps0_4, List.flatten_cons, List.flatten_nil, List.append_nil, List.cons_append, List.nil_append]
  after_results
  rfl

theorem V_v2 (c : Dev nD) : (V m c main_v2 : S128x128.Idx → EReal)
    = Cert.ReferenceIdeal.Read.val_main_v25 (F := Ideal) (m ((c : Thread nD τ).loc main_arg3)) := by
  dsimp only [V, V0]
  simp only [hostOps0, hostOps0_1, hostOps0_2, hostOps0_3, hostOps0_4, List.flatten_cons, List.flatten_nil, List.append_nil, List.cons_append, List.nil_append]
  after_results
  rfl

theorem V_v4 (c : Dev nD) : (V m c main_v4 : S128x128.Idx → EReal)
    = Cert.ReferenceIdeal.Read.val_main_v26 (F := Ideal) (m ((c : Thread nD τ).loc main_arg5)) := by
  dsimp only [V, V0]
  simp only [hostOps0, hostOps0_1, hostOps0_2, hostOps0_3, hostOps0_4, List.flatten_cons, List.flatten_nil, List.append_nil, List.cons_append, List.nil_append]
  after_results
  rfl

theorem V_v5 (c : Dev nD) : (V m c main_v5 : S128x1.Idx → EReal)
    = shapeCast S128x1 (m ((c : Thread nD τ).loc main_arg4)) shapeCasts_S128_S128x1 := by
  dsimp only [V, V0]
  simp only [hostOps0, hostOps0_1, hostOps0_2, hostOps0_3, hostOps0_4, List.flatten_cons, List.flatten_nil, List.append_nil, List.cons_append, List.nil_append]
  after_results
  rfl

theorem V_v6 (c : Dev nD) : (V m c main_v6 : S128x1.Idx → EReal)
    = shapeCast S128x1 (m ((c : Thread nD τ).loc main_arg6)) shapeCasts_S128_S128x1 := by
  dsimp only [V, V0]
  simp only [hostOps0, hostOps0_1, hostOps0_2, hostOps0_3, hostOps0_4, List.flatten_cons, List.flatten_nil, List.append_nil, List.cons_append, List.nil_append]
  after_results
  rfl

/-! ## The index maps over the grid -/

theorem idx_facts : ∀ t : Fin cfg0.N,
    win0_0.index t (0 : Fin 3) = win0_7.index t (0 : Fin 3) ∧ win0_0.index t (1 : Fin 3) = 0 ∧ win0_0.index t (2 : Fin 3) = 0
    ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem idx_onto : ∀ q : Fin 16, ∃ t : Fin cfg0.N, win0_7.index t = ![q.val, 0, 0] :=
  (by decide +kernel : ∀ q : Fin 16, ∃ t : Fin grid0.N, win0_7.index t = ![q.val, 0, 0])

/-! ## The output array as one function -/

/-- Slab s of the output is the row function of slab s of the input, with the weight arrays. -/
def arrayOut (a0 : S512x128x256.Idx → EReal) (g β : S128x256.Idx → EReal) (M₁ : S128x128.Idx → EReal) (b₁ : S128x1.Idx → EReal)
    (M₂ : S128x128.Idx → EReal) (b₂ : S128x1.Idx → EReal) : S512x128x256.Idx → EReal := fun i =>
  row (fun t f => a0 (ix3 (⟨(i 0).val, (i 0).isLt⟩ : Fin 512) t f)) (fun t f => g (ix2 t f)) (fun t f => β (ix2 t f))
    (fun s k => M₁ (ix2 s k)) (fun s => b₁ (ix2 s (0 : Fin 1))) (fun s k => M₂ (ix2 s k)) (fun s => b₂ (ix2 s (0 : Fin 1)))
    (⟨(i 1).val, (i 1).isLt⟩ : Fin 128) (⟨(i 2).val, (i 2).isLt⟩ : Fin 256)

/-- The row function respects pointwise equal arguments. -/
theorem row_congr {X X' g g' β β' : Slab} {M₁ M₁' M₂ M₂' : Fin 128 → Fin 128 → EReal} {b₁ b₁' b₂ b₂' : Fin 128 → EReal}
    {t t' : Fin 128} {f f' : Fin 256}
    (hX : ∀ t f, X t f = X' t f) (hg : ∀ t f, g t f = g' t f) (hβ : ∀ t f, β t f = β' t f)
    (hM₁ : ∀ s k, M₁ s k = M₁' s k) (hb₁ : ∀ s, b₁ s = b₁' s) (hM₂ : ∀ s k, M₂ s k = M₂' s k) (hb₂ : ∀ s, b₂ s = b₂' s)
    (ht : t = t') (hf : f = f') :
    row X g β M₁ b₁ M₂ b₂ t f = row X' g' β' M₁' b₁' M₂' b₂' t' f' := by
  obtain rfl : X = X' := funext fun t => funext fun f => hX t f
  obtain rfl : g = g' := funext fun t => funext fun f => hg t f
  obtain rfl : β = β' := funext fun t => funext fun f => hβ t f
  obtain rfl : M₁ = M₁' := funext fun s => funext fun k => hM₁ s k
  obtain rfl : b₁ = b₁' := funext fun s => hb₁ s
  obtain rfl : M₂ = M₂' := funext fun s => funext fun k => hM₂ s k
  obtain rfl : b₂ = b₂' := funext fun s => hb₂ s
  subst ht hf
  rfl

/-- What point t writes back is block t of that function. -/
theorem flushed_eq (c : Dev nD) (t : Fin cfg0.N) :
    (dats m 0 c).flushed 7 t = ((cfg0.win 7).blk t).view.read (Elt Ideal) (arrayOut (V m c main_v0) (V m c main_arg1) (V m c main_arg2) (V m c main_v2) (V m c main_v5) (V m c main_v4) (V m c main_v6)) := by
  show (cfg0.win 7).cut (grid0.coords t) ((dats m 0 c).after 7 t) = _
  rw [after0_7]
  unfold outsAt0
  rw [Cert.Mixer.Pieces.out_eq]
  obtain ⟨e0, e1, e2, e3, e4, f10, f11, f20, f21, f30, f31, f40, f41, f50, f51, f60, f61⟩ := idx_facts t
  funext j
  refine (block_entry_idx (iblk m c 0 t) (iblk m c 1 t) (iblk m c 2 t) (iblk m c 3 t) (iblk m c 5 t) (iblk m c 4 t) (iblk m c 6 t) j).trans ?_
  show _ = arrayOut (V m c main_v0) (V m c main_arg1) (V m c main_arg2) (V m c main_v2) (V m c main_v5) (V m c main_v4) (V m c main_v6) (((cfg0.win 7).blk t).view.emb j)
  unfold arrayOut
  refine row_congr (fun t' f' => ?_) (fun t' f' => ?_) (fun t' f' => ?_) (fun s k => ?_) (fun s => ?_) (fun s k => ?_) (fun s => ?_)
    (Fin.ext ?_) (Fin.ext ?_)
  · show V m c main_v0 (((cfg0.win 0).blk t).view.emb (ix3 (⟨(j 0).val, (j 0).isLt⟩ : Fin 32) t' f')) = _
    refine congrArg (V m c main_v0) (funext fun ax => Fin.ext ?_)
    match ax with
    | ⟨0, _⟩ =>
      show win0_0.index t (0 : Fin 3) * 32 + 1 * (j 0).val = win0_7.index t (0 : Fin 3) * 32 + 1 * (j 0).val
      omega
    | ⟨1, _⟩ =>
      show win0_0.index t (1 : Fin 3) * 128 + 1 * t'.val = t'.val
      omega
    | ⟨2, _⟩ =>
      show win0_0.index t (2 : Fin 3) * 256 + 1 * f'.val = f'.val
      omega
  · show V m c main_arg1 (((cfg0.win 1).blk t).view.emb (ix2 t' f')) = _
    refine congrArg (V m c main_arg1) (funext fun ax => Fin.ext ?_)
    match ax with
    | ⟨0, _⟩ =>
      show win0_1.index t (0 : Fin 2) * 128 + 1 * t'.val = t'.val
      omega
    | ⟨1, _⟩ =>
      show win0_1.index t (1 : Fin 2) * 256 + 1 * f'.val = f'.val
      omega
  · show V m c main_arg2 (((cfg0.win 2).blk t).view.emb (ix2 t' f')) = _
    refine congrArg (V m c main_arg2) (funext fun ax => Fin.ext ?_)
    match ax with
    | ⟨0, _⟩ =>
      show win0_2.index t (0 : Fin 2) * 128 + 1 * t'.val = t'.val
      omega
    | ⟨1, _⟩ =>
      show win0_2.index t (1 : Fin 2) * 256 + 1 * f'.val = f'.val
      omega
  · show V m c main_v2 (((cfg0.win 3).blk t).view.emb (ix2 s k)) = _
    refine congrArg (V m c main_v2) (funext fun ax => Fin.ext ?_)
    match ax with
    | ⟨0, _⟩ =>
      show win0_3.index t (0 : Fin 2) * 128 + 1 * s.val = s.val
      omega
    | ⟨1, _⟩ =>
      show win0_3.index t (1 : Fin 2) * 128 + 1 * k.val = k.val
      omega
  · show V m c main_v5 (((cfg0.win 4).blk t).view.emb (ix2 s (0 : Fin 1))) = _
    refine congrArg (V m c main_v5) (funext fun ax => Fin.ext ?_)
    match ax with
    | ⟨0, _⟩ =>
      show win0_4.index t (0 : Fin 2) * 128 + 1 * s.val = s.val
      omega
    | ⟨1, _⟩ =>
      show win0_4.index t (1 : Fin 2) * 1 + 1 * 0 = 0
      omega
  · show V m c main_v4 (((cfg0.win 5).blk t).view.emb (ix2 s k)) = _
    refine congrArg (V m c main_v4) (funext fun ax => Fin.ext ?_)
    match ax with
    | ⟨0, _⟩ =>
      show win0_5.index t (0 : Fin 2) * 128 + 1 * s.val = s.val
      omega
    | ⟨1, _⟩ =>
      show win0_5.index t (1 : Fin 2) * 128 + 1 * k.val = k.val
      omega
  · show V m c main_v6 (((cfg0.win 6).blk t).view.emb (ix2 s (0 : Fin 1))) = _
    refine congrArg (V m c main_v6) (funext fun ax => Fin.ext ?_)
    match ax with
    | ⟨0, _⟩ =>
      show win0_6.index t (0 : Fin 2) * 128 + 1 * s.val = s.val
      omega
    | ⟨1, _⟩ =>
      show win0_6.index t (1 : Fin 2) * 1 + 1 * 0 = 0
      omega
  · show (j 1).val = win0_7.index t (1 : Fin 3) * 128 + 1 * (j 1).val
    omega
  · show (j 2).val = win0_7.index t (2 : Fin 3) * 256 + 1 * (j 2).val
    omega

/-! ## The blocks tile the array -/

/-- An index is in point t's block iff each coordinate is in the block's range. -/
theorem mem_blk (t : Fin cfg0.N) (i : S512x128x256.Idx) :
    i ∈ ((cfg0.win 7).blk t).view.set ↔ ∀ a : Fin 3, win0_7.index t a * S32x128x256.size a ≤ (i a).val
      ∧ (i a).val < win0_7.index t a * S32x128x256.size a + S32x128x256.size a := by
  show i ∈ ((View.whole main_v7).slice (win0_7.rect t)).set ↔ _
  rw [View.set_slice_whole, Rect.mem_set_unit]
  exact Iff.rfl

/-- Slab s lies in the block of point s / 32. -/
theorem cover (i : S512x128x256.Idx) : ∃ t : Fin cfg0.N, (cfg0.win 7).flush t = true ∧ i ∈ ((cfg0.win 7).blk t).view.set := by
  have hi0 : (i 0).val < 512 := (i 0).isLt
  have hi1 : (i 1).val < 128 := (i 1).isLt
  have hi2 : (i 2).val < 256 := (i 2).isLt
  obtain ⟨t, ht⟩ := idx_onto ⟨(i 0).val / 32, by omega⟩
  have q0 : win0_7.index t (0 : Fin 3) = (i 0).val / 32 := congrFun ht 0
  have q1 : win0_7.index t (1 : Fin 3) = 0 := congrFun ht 1
  have q2 : win0_7.index t (2 : Fin 3) = 0 := congrFun ht 2
  refine ⟨t, flush0_7 t, ?_⟩
  rw [mem_blk]
  intro a
  match a with
  | ⟨0, _⟩ =>
    show win0_7.index t (0 : Fin 3) * 32 ≤ (i 0).val ∧ (i 0).val < win0_7.index t (0 : Fin 3) * 32 + 32
    omega
  | ⟨1, _⟩ =>
    show win0_7.index t (1 : Fin 3) * 128 ≤ (i 1).val ∧ (i 1).val < win0_7.index t (1 : Fin 3) * 128 + 128
    omega
  | ⟨2, _⟩ =>
    show win0_7.index t (2 : Fin 3) * 256 ≤ (i 2).val ∧ (i 2).val < win0_7.index t (2 : Fin 3) * 256 + 256
    omega

/-- The output array after the run. -/
theorem final (c : Dev nD) : (dats m 0 c).arrAt 7 cfg0.N = arrayOut (V m c main_v0) (V m c main_arg1) (V m c main_arg2) (V m c main_v2) (V m c main_v5) (V m c main_v4) (V m c main_v6) :=
  (dats m 0 c).arrAt_eq_of_cover 7 _ (fun t _ => flushed_eq m c t) cover

/-! ## The host's reshape after the region, and the result -/

theorem tail_eq (c : Dev nD) :
    (Pipeline.afterTail₀ cfgs (dats m) 0 (V0 m) [hostOps1] c main_v8 : S64x8x128x256.Idx → EReal)
      = shapeCast S64x8x128x256 (arrayOut (V m c main_v0) (V m c main_arg1) (V m c main_arg2) (V m c main_v2) (V m c main_v5) (V m c main_v4) (V m c main_v6)) shapeCasts_S512x128x256_S64x8x128x256 := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.tc.devRef main_v7)
      = arrayOut (V m c main_v0) (V m c main_arg1) (V m c main_arg2) (V m c main_v2) (V m c main_v5) (V m c main_v4) (V m c main_v6) :=
    (Pipeline.withArrays_arr spec0 winFacts0.arr_inj c (V0 m c) (fun w => (dats m 0 c).arrAt w cfg0.N) 7).trans (final m c)
  rw [hw]
  rfl

/-- Read at (b, d, t, f): slab 8b + d of the 512 slabs, which is slab (b, d) of x; the weights are the arguments, the two
    matrices masked by the host. -/
theorem result_eq (c : Dev nD) :
    shapeCast S64x8x128x256 (arrayOut (V m c main_v0) (V m c main_arg1) (V m c main_arg2) (V m c main_v2) (V m c main_v5) (V m c main_v4) (V m c main_v6)) shapeCasts_S512x128x256_S64x8x128x256
      = Cert.Mixer.result (m ((c.tc : Thread nD τ).loc main_arg0)) (m ((c.tc : Thread nD τ).loc main_arg1)) (m ((c.tc : Thread nD τ).loc main_arg2))
          (Cert.ReferenceIdeal.Read.val_main_v25 (F := Ideal) (m ((c.tc : Thread nD τ).loc main_arg3))) (m ((c.tc : Thread nD τ).loc main_arg4))
          (Cert.ReferenceIdeal.Read.val_main_v26 (F := Ideal) (m ((c.tc : Thread nD τ).loc main_arg5))) (m ((c.tc : Thread nD τ).loc main_arg6)) := by
  funext i
  obtain ⟨b, d, t, f, rfl⟩ : ∃ (b : Fin 64) (d : Fin 8) (t : Fin 128) (f : Fin 256), i = ix4 b d t f :=
    ⟨i 0, i 1, i 2, i 3, eq_ix4 i⟩
  have hbd : b.val * 8 + d.val < 512 := by omega
  rw [Cert.Lib.LeadAxes.shapeCast_split rfl _ _ b d t f hbd]
  unfold arrayOut Cert.Mixer.result
  refine row_congr (fun t' f' => ?_) (fun t' f' => ?_) (fun t' f' => ?_) (fun s k => ?_) (fun s => ?_) (fun s k => ?_) (fun s => ?_)
    rfl rfl
  · rw [V_v0]
    exact Cert.Lib.LeadAxes.shapeCast_merge rfl _ _ b d t' f' hbd
  · rw [V_main_arg1]
  · rw [V_main_arg2]
  · rw [V_v2]
  · rw [V_v5]
    exact Cert.Lib.RowOps.vec_col _ _ s (0 : Fin 1)
  · rw [V_v4]
  · rw [V_v6]
    exact Cert.Lib.RowOps.vec_col _ _ s (0 : Fin 1)

/-! ## The run -/

/-- Every weakly fair execution of the program ends with its result at the specification's function of the arguments, and
    the arguments unchanged. -/
theorem run : θ_run defs (onTc (τ := τ) (main (F := Ideal))) ⟨m, fun _ => 0, ρ⟩ (fun r => ∀ c : Dev nD,
      r.2.mem ((c.tc : Thread nD τ).loc main_v8) = Cert.Mixer.result (m ((c.tc : Thread nD τ).loc main_arg0)) (m ((c.tc : Thread nD τ).loc main_arg1)) (m ((c.tc : Thread nD τ).loc main_arg2))
          (Cert.ReferenceIdeal.Read.val_main_v25 (F := Ideal) (m ((c.tc : Thread nD τ).loc main_arg3))) (m ((c.tc : Thread nD τ).loc main_arg4))
          (Cert.ReferenceIdeal.Read.val_main_v26 (F := Ideal) (m ((c.tc : Thread nD τ).loc main_arg5))) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v8 (Pipeline.mem_restRefs_of main_v8 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Mixer.Kernel

end
-- ==== Proof.RefResult.lean ====
/-
  The reference program, read at an index, is the specification of the token mixer.

  For a slab (b, c) of the input the program first sums all 128·256 entries (a sum over the two trailing axes at
  once), divides by 32768 and subtracts: the slab's deviation from its mean; the squares are summed and divided
  the same way: the variance; then comes the reciprocal square root, the affine map, a transposition to
  (feature, time), two contractions over time against the two mixing matrices with a hard-swish between them, the
  residual, and the transposition back. Each stage below is read at the index (b, c, t, f) (or (b, c, f, s) for the
  transposed stages) and identified with the corresponding function of the specification on the slab
  X = x(b, c, ·, ·). Two facts are not bookkeeping: the sum over two axes at once is the double sum over
  (time, feature), by the bijection between the indices that share (b, c) and the pairs (t, f); and division by
  32768 is multiplication by 2⁻¹⁵ on every extended real. The contractions put the matrix on the right of the
  product where the specification has it on the left: products of extended reals commute.
-/
import proofs.«166694_j6347961664093_2_alg».proof.Proof.Gen.ReferenceIdeal.Read
import proofs.«166694_j6347961664093_2_alg».proof.Proof.MixerSpec
import Idealize.ShloMosaic.Lib.ValueIdx
import Idealize.ShloMosaic.PureOps.Ideal.Laws

noncomputable section

namespace Cert.Mixer.Ref

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read

/-! ## The two float words that are evaluated, and division by the number of entries -/

/-- The divisor's word denotes 32768 = 2¹⁵. -/
theorem ofBits_32768 : Ideal.ofBits .f32 0x47000000#32 = ((32768 : ℝ) : EReal) := by
  simp [Ideal.ofBits, Ideal.ieee, -EReal.coe_mul]; norm_num

/-- The specification's factor denotes 2⁻¹⁵. -/
theorem ofBits_inv32768 : Ideal.ofBits .f32 0x38000000#32 = ((1 / 32768 : ℝ) : EReal) := by
  simp [Ideal.ofBits, Ideal.ieee, -EReal.coe_mul]; norm_num

/-- Dividing by 32768 is multiplying by 2⁻¹⁵, at the infinities too. -/
theorem div_entries (T : EReal) : Ideal.div T (Ideal.ofBits .f32 0x47000000#32) = T * Cert.Mixer.invN := by
  rw [ofBits_32768, Ideal.div_coe (by norm_num : (32768 : ℝ) ≠ 0), ← ofBits_inv32768]

/-! ## The sum over the two trailing axes -/

/-- Dropping time and feature from (b, c, t, f) leaves (b, c). -/
theorem drop_ix4 (h : S64x8x128x256.ReducesTo [2, 3] S64x8) (b : Fin 64) (c : Fin 8) (t : Fin 128) (f : Fin 256) :
    h.drop (ix4 b c t f) = ix2 b c := by
  funext a
  match a with
  | ⟨0, _⟩ => rfl
  | ⟨1, _⟩ => rfl

/-- The sum over the trailing two axes at (b, c): the initial value plus the double sum over (time, feature).
    The indices that drop to (b, c) are exactly the (b, c, t, f), one for each pair (t, f). -/
theorem hostReduceAdd_slab (h : S64x8x128x256.ReducesTo [2, 3] S64x8) (x : S64x8x128x256.Idx → EReal) (init : EReal)
    (b : Fin 64) (c : Fin 8) :
    Ideal.hostReduceAdd h x init (ix2 b c) = init + ∑ t : Fin 128, ∑ f : Fin 256, x (ix4 b c t f) := by
  unfold Ideal.hostReduceAdd
  congr 1
  rw [← Fintype.sum_prod_type']
  symm
  refine Finset.sum_bij (fun p _ => ix4 b c p.1 p.2) ?_ ?_ ?_ ?_
  · intro p _
    exact Finset.mem_filter.mpr ⟨Finset.mem_univ _, drop_ix4 h b c p.1 p.2⟩
  · intro p _ q _ hpq
    exact Prod.ext (congrFun hpq 2) (congrFun hpq 3)
  · intro i hi
    have hd := (Finset.mem_filter.mp hi).2
    have h0 : i 0 = b := congrFun hd 0
    have h1 : i 1 = c := congrFun hd 1
    refine ⟨(i 2, i 3), Finset.mem_univ _, ?_⟩
    subst h0
    subst h1
    exact (eq_ix4 i).symm
  · intro p _
    rfl

/-- The program's sum of an array with a zero initial value, at (b, c). -/
theorem reduce_at (y : (⟨S64x8x128x256, .f32⟩ : BufTy).Contents (Elt Ideal)) (b : Fin 64) (c : Fin 8) :
    Ideal.hostReduceAdd reducesTo_S64x8x128x256_S64x8_d2_3 y (Ideal.ofBits .f32 0x00000000#32) (ix2 b c)
      = ∑ t : Fin 128, ∑ f : Fin 256, y (ix4 b c t f) := by
  rw [hostReduceAdd_slab, Ideal.ofBits_zero_f32, zero_add]

/-! ## The operands of the specification -/

/-- Slab (b, c) of the input: time × feature. -/
abbrev slab (x0 : (⟨S64x8x128x256, .f32⟩ : BufTy).Contents (Elt Ideal)) (b : Fin 64) (c : Fin 8) : Cert.Mixer.Slab :=
  fun t f => x0 (ix4 b c t f)

/-- An affine weight as a slab. -/
abbrev wslab (w : (⟨S128x256, .f32⟩ : BufTy).Contents (Elt Ideal)) : Cert.Mixer.Slab := fun t f => w (ix2 t f)

/-- A mixing matrix by its two coordinates. -/
abbrev mat (M : (⟨S128x128, .f32⟩ : BufTy).Contents (Elt Ideal)) : Fin 128 → Fin 128 → EReal := fun s k => M (ix2 s k)

/-- A bias by its coordinate. -/
abbrev vec (v : (⟨S128, .f32⟩ : BufTy).Contents (Elt Ideal)) : Fin 128 → EReal := fun s => v (ix1 s)

/-! ## The mean and the variance -/

section
variable (x0 : (⟨S64x8x128x256, .f32⟩ : BufTy).Contents (Elt Ideal))
variable (x1 x2 : (⟨S128x256, .f32⟩ : BufTy).Contents (Elt Ideal))
variable (x3 : (⟨S128x128, .f32⟩ : BufTy).Contents (Elt Ideal))
variable (x4 : (⟨S128, .f32⟩ : BufTy).Contents (Elt Ideal))
variable (x5 : (⟨S128x128, .f32⟩ : BufTy).Contents (Elt Ideal))
variable (x6 : (⟨S128, .f32⟩ : BufTy).Contents (Elt Ideal))
variable (b : Fin 64) (c : Fin 8)

/-- The first sum at (b, c) is the slab's total. -/
theorem v0_at : val_main_v0 (F := Ideal) x0 (ix2 b c) = Cert.Mixer.total (slab x0 b c) :=
  reduce_at x0 b c

/-- The mean stage, at any index whose leading coordinates are (b, c), is the slab's mean. -/
theorem v3_at (j : S64x8x1x1.Idx) (h0 : (j 0).val = b.val) (h1 : (j 1).val = c.val) :
    val_main_v3 (F := Ideal) x0 j = Cert.Mixer.mean (slab x0 b c) := by
  have e : idx_main_v1 j = ix2 b c := funext fun a => Fin.ext (by
    match a with
    | ⟨0, _⟩ => exact h0
    | ⟨1, _⟩ => exact h1)
  rw [val_main_v3_apply, val_main_v1_apply, val_main_v2_apply, val_main_cst_0_apply, e, v0_at]
  exact div_entries _

/-- The mean broadcast over the slab (its first use). -/
theorem v4_at (t : Fin 128) (f : Fin 256) :
    val_main_v4 (F := Ideal) x0 (ix4 b c t f) = Cert.Mixer.mean (slab x0 b c) := by
  rw [val_main_v4_apply]
  exact v3_at x0 b c (idx_main_v4 (ix4 b c t f)) rfl rfl

/-- The mean broadcast over the slab (its second use). -/
theorem v11_at (t : Fin 128) (f : Fin 256) :
    val_main_v11 (F := Ideal) x0 (ix4 b c t f) = Cert.Mixer.mean (slab x0 b c) := by
  rw [val_main_v11_apply]
  exact v3_at x0 b c (idx_main_v11 (ix4 b c t f)) rfl rfl

/-- The deviation from the mean (the one that is squared). -/
theorem v5_at (t : Fin 128) (f : Fin 256) :
    val_main_v5 (F := Ideal) x0 (ix4 b c t f) = Cert.Mixer.dev (slab x0 b c) t f := by
  rw [val_main_v5_apply, v4_at]
  rfl

/-- The deviation from the mean (the one that is normalised). -/
theorem v12_at (t : Fin 128) (f : Fin 256) :
    val_main_v12 (F := Ideal) x0 (ix4 b c t f) = Cert.Mixer.dev (slab x0 b c) t f := by
  rw [val_main_v12_apply, v11_at]
  rfl

/-- The square of the deviation is its product with itself. -/
theorem v6_at (t : Fin 128) (f : Fin 256) :
    val_main_v6 (F := Ideal) x0 (ix4 b c t f)
      = Cert.Mixer.dev (slab x0 b c) t f * Cert.Mixer.dev (slab x0 b c) t f := by
  rw [val_main_v6_apply, v5_at]
  rfl

/-- The second sum at (b, c) is the total of the squared deviations. -/
theorem v7_at :
    val_main_v7 (F := Ideal) x0 (ix2 b c)
      = Cert.Mixer.total (fun t f => Cert.Mixer.dev (slab x0 b c) t f * Cert.Mixer.dev (slab x0 b c) t f) :=
  (reduce_at (val_main_v6 (F := Ideal) x0) b c).trans
    (Finset.sum_congr rfl fun t _ => Finset.sum_congr rfl fun f _ => v6_at x0 b c t f)

/-- The variance stage, at any index whose leading coordinates are (b, c). -/
theorem v10_at (j : S64x8x1x1.Idx) (h0 : (j 0).val = b.val) (h1 : (j 1).val = c.val) :
    val_main_v10 (F := Ideal) x0 j = Cert.Mixer.var (slab x0 b c) := by
  have e : idx_main_v8 j = ix2 b c := funext fun a => Fin.ext (by
    match a with
    | ⟨0, _⟩ => exact h0
    | ⟨1, _⟩ => exact h1)
  rw [val_main_v10_apply, val_main_v8_apply, val_main_v9_apply, val_main_cst_2_apply, e, v7_at]
  exact div_entries _

/-- The reciprocal square root of variance plus ε, broadcast over the slab. -/
theorem v16_at (t : Fin 128) (f : Fin 256) :
    val_main_v16 (F := Ideal) x0 (ix4 b c t f) = Ideal.rsqrt (Cert.Mixer.var (slab x0 b c) + Cert.Mixer.eps) := by
  rw [val_main_v16_apply, val_main_v15_apply, val_main_v14_apply, val_main_v13_apply, val_main_cst_3_apply,
    v10_at x0 b c (idx_main_v16 (ix4 b c t f)) rfl rfl]
  rfl

/-! ## The affine map: the normalised slab -/

/-- The scale, broadcast over the leading axes, at (b, c, t, f) is the weight at (t, f). -/
theorem v19_at (t : Fin 128) (f : Fin 256) : val_main_v19 (F := Ideal) x1 (ix4 b c t f) = x1 (ix2 t f) := by
  have e : idx_main_v18 (idx_main_v19 (ix4 b c t f)) = ix2 t f := funext fun a => Fin.ext (by
    match a with
    | ⟨0, _⟩ => rfl
    | ⟨1, _⟩ => rfl)
  rw [val_main_v19_apply, val_main_v18_apply, e]

/-- The shift likewise. -/
theorem v22_at (t : Fin 128) (f : Fin 256) : val_main_v22 (F := Ideal) x2 (ix4 b c t f) = x2 (ix2 t f) := by
  have e : idx_main_v21 (idx_main_v22 (ix4 b c t f)) = ix2 t f := funext fun a => Fin.ext (by
    match a with
    | ⟨0, _⟩ => rfl
    | ⟨1, _⟩ => rfl)
  rw [val_main_v22_apply, val_main_v21_apply, e]

/-- The normalised slab, as the specification names it. -/
abbrev nrm : Cert.Mixer.Slab := Cert.Mixer.norm (slab x0 b c) (wslab x1) (wslab x2)

/-- The layer normalisation at (b, c, t, f). -/
theorem v23_at (t : Fin 128) (f : Fin 256) :
    val_main_v23 (F := Ideal) x0 x1 x2 (ix4 b c t f) = nrm x0 x1 x2 b c t f := by
  rw [val_main_v23_apply, val_main_v20_apply, val_main_v17_apply, v12_at, v16_at, v19_at, v22_at]
  rfl

/-- Transposed to (feature, time). -/
theorem v24_at (f : Fin 256) (t : Fin 128) :
    val_main_v24 (F := Ideal) x0 x1 x2 (ix4 b c f t) = nrm x0 x1 x2 b c t f := by
  have e : idx_main_v24 (ix4 b c f t) = ix4 b c t f := funext fun a => Fin.ext (by
    match a with
    | ⟨0, _⟩ => rfl
    | ⟨1, _⟩ => rfl
    | ⟨2, _⟩ => rfl
    | ⟨3, _⟩ => rfl)
  rw [val_main_v24_apply, e, v23_at]

/-! ## The first mixing and the hard-swish -/

/-- The first mixing, as the specification names it (the masked matrix stays the program's own term). -/
abbrev mix1 : Cert.Mixer.Slab :=
  Cert.Mixer.mix (mat (val_main_v25 (F := Ideal) x3)) (vec x4) (nrm x0 x1 x2 b c)

/-- The first contraction over time at (b, c, f, s): the matrix moves to the left of each product. -/
theorem v27_at (f : Fin 256) (s : Fin 128) :
    val_main_v27 (F := Ideal) x0 x1 x2 x3 (ix4 b c f s)
      = ∑ k : Fin 128, mat (val_main_v25 (F := Ideal) x3) s k * nrm x0 x1 x2 b c k f := by
  rw [val_main_v27_apply]
  refine Finset.sum_congr rfl fun k _ => ?_
  have el : lidx_main_v27 (ix4 b c f s) k = ix4 b c f k := funext fun a => Fin.ext (by
    match a with
    | ⟨0, _⟩ => rfl
    | ⟨1, _⟩ => rfl
    | ⟨2, _⟩ => rfl
    | ⟨3, _⟩ => rfl)
  have er : ridx_main_v27 (ix4 b c f s) k = ix2 s k := funext fun a => Fin.ext (by
    match a with
    | ⟨0, _⟩ => rfl
    | ⟨1, _⟩ => rfl)
  rw [el, er, v24_at]
  exact mul_comm _ _

/-- The first bias, broadcast, at (b, c, f, s) is the bias at s. -/
theorem v29_at (f : Fin 256) (s : Fin 128) : val_main_v29 (F := Ideal) x4 (ix4 b c f s) = x4 (ix1 s) := by
  have e : idx_main_v28 (idx_main_v29 (ix4 b c f s)) = ix1 s := funext fun a => Fin.ext (by
    match a with
    | ⟨0, _⟩ => rfl)
  rw [val_main_v29_apply, val_main_v28_apply, e]

/-- The first mixing at (b, c, f, s). -/
theorem v30_at (f : Fin 256) (s : Fin 128) :
    val_main_v30 (F := Ideal) x0 x1 x2 x3 x4 (ix4 b c f s) = mix1 x0 x1 x2 x3 x4 b c s f := by
  rw [val_main_v30_apply, v27_at, v29_at]
  rfl

/-- The hard-swish of the first mixing at (b, c, f, s). -/
theorem v36_at (f : Fin 256) (s : Fin 128) :
    val_main_v36 (F := Ideal) x0 x1 x2 x3 x4 (ix4 b c f s) = Cert.Mixer.hswish (mix1 x0 x1 x2 x3 x4 b c s f) := by
  rw [val_main_v36_apply, val_main_v34_apply, val_main_v33_apply, val_main_call2_v4_apply, val_main_call2_v3_apply,
    val_main_cst_6_apply, val_main_call2_v2_apply, val_main_call2_v1_apply, val_main_call2_v0_apply,
    val_main_cst_5_apply, val_main_v32_apply, val_main_v31_apply, val_main_cst_4_apply, val_main_v35_apply,
    val_main_cst_7_apply, v30_at]
  rfl

/-! ## The second mixing, the residual, and the result -/

/-- The second contraction over time at (b, c, f, s). -/
theorem v37_at (f : Fin 256) (s : Fin 128) :
    val_main_v37 (F := Ideal) x0 x1 x2 x3 x4 x5 (ix4 b c f s)
      = ∑ k : Fin 128, mat (val_main_v26 (F := Ideal) x5) s k * Cert.Mixer.hswish (mix1 x0 x1 x2 x3 x4 b c k f) := by
  rw [val_main_v37_apply]
  refine Finset.sum_congr rfl fun k _ => ?_
  have el : lidx_main_v37 (ix4 b c f s) k = ix4 b c f k := funext fun a => Fin.ext (by
    match a with
    | ⟨0, _⟩ => rfl
    | ⟨1, _⟩ => rfl
    | ⟨2, _⟩ => rfl
    | ⟨3, _⟩ => rfl)
  have er : ridx_main_v37 (ix4 b c f s) k = ix2 s k := funext fun a => Fin.ext (by
    match a with
    | ⟨0, _⟩ => rfl
    | ⟨1, _⟩ => rfl)
  rw [el, er, v36_at]
  exact mul_comm _ _

/-- The second bias, broadcast, at (b, c, f, s) is the bias at s. -/
theorem v39_at (f : Fin 256) (s : Fin 128) : val_main_v39 (F := Ideal) x6 (ix4 b c f s) = x6 (ix1 s) := by
  have e : idx_main_v38 (idx_main_v39 (ix4 b c f s)) = ix1 s := funext fun a => Fin.ext (by
    match a with
    | ⟨0, _⟩ => rfl)
  rw [val_main_v39_apply, val_main_v38_apply, e]

/-- The residual sum at (b, c, f, t) is the specification's row at (t, f). -/
theorem v41_at (f : Fin 256) (t : Fin 128) :
    val_main_v41 (F := Ideal) x0 x1 x2 x3 x4 x5 x6 (ix4 b c f t)
      = Cert.Mixer.row (slab x0 b c) (wslab x1) (wslab x2) (mat (val_main_v25 (F := Ideal) x3)) (vec x4)
          (mat (val_main_v26 (F := Ideal) x5)) (vec x6) t f := by
  rw [val_main_v41_apply, val_main_v40_apply, v24_at, v37_at, v39_at]
  rfl

end

/-- The reference program's result is the specification's, with the two masked matrices the program's own terms. -/
theorem ref_result
    (x0 : (⟨Cert.ReferenceIdeal.S64x8x128x256, .f32⟩ : BufTy).Contents (Elt Ideal))
    (x1 x2 : (⟨Cert.ReferenceIdeal.S128x256, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal)) :
    Cert.ReferenceIdeal.Read.val_main_v42 (F := Ideal) x0 x1 x2 x3 x4 x5 x6
      = Cert.Mixer.result x0 x1 x2 (Cert.ReferenceIdeal.Read.val_main_v25 (F := Ideal) x3) x4
          (Cert.ReferenceIdeal.Read.val_main_v26 (F := Ideal) x5) x6 := by
  funext i
  obtain ⟨b, c, t, f, rfl⟩ : ∃ (b : Fin 64) (c : Fin 8) (t : Fin 128) (f : Fin 256), i = ix4 b c t f :=
    ⟨i 0, i 1, i 2, i 3, eq_ix4 i⟩
  have e : idx_main_v42 (ix4 b c t f) = ix4 b c f t := funext fun a => Fin.ext (by
    match a with
    | ⟨0, _⟩ => rfl
    | ⟨1, _⟩ => rfl
    | ⟨2, _⟩ => rfl
    | ⟨3, _⟩ => rfl)
  rw [val_main_v42_apply, e, v41_at]
  rfl

end Cert.Mixer.Ref

end
-- ==== Proof.lean ====
/-
  A token mixer over x : f32[64, 8, 128, 256], equal at the ideal values to its jnp reference.

  Each of the 64·8 slabs X (128 times × 256 features) is normalised over ALL of its 2¹⁵ entries — mean and variance of the
  whole slab, rsqrt (var + ε), an affine map with one weight and one bias per entry — and then mixed along time:
      y = xn + M₂ · hswish (M₁ · xn + b₁) + b₂,     M₁ = tril W₁, M₂ = tril W₂ acting on the left (the time axis),
  with hswish z = z · min 6 (max 0 (z + 3)) · (1/6 as a float).

  The kernel works on 512 slabs, 32 per grid point, one per trip of a loop; it takes the slab's total as a sum along rows
  then down the column of row sums, multiplies by 2⁻¹⁵, and multiplies matrices on the left in the (time, feature) layout.
  The reference takes each total as one sum over both axes and DIVIDES by 32768, swaps the two axes, contracts on the
  right (Σ_t xt[f, t] · M[s, t]) and swaps back. On the extended reals the two agree entry by entry: a finite sum may be
  regrouped freely, division by 32768 is multiplication by 2⁻¹⁵ at every extended real, and multiplication commutes —
  no cancellation or distributivity is used, so the inputs' finiteness is never needed. The triangular masking is the same
  host function in both programs and is never opened. A change of float format is the identity at the ideal values, and
  the idealization rewrote nothing, so its preservation claim is empty.

  The three frames and the reference's run are generated; the kernel's result array is read off the generated frame run
  (Proof/RowPieces, RowValue, BlockEntry, KernelArray), the reference's off its generated run (Proof/RefResult), both as the
  one function `Cert.Mixer.result` (Proof/MixerSpec).
-/
import proofs.«166694_j6347961664093_2_alg».proof.Defs
import proofs.«166694_j6347961664093_2_alg».proof.Proof.Gen.Kernel
import proofs.«166694_j6347961664093_2_alg».proof.Proof.Gen.Kernel.Skeleton
import proofs.«166694_j6347961664093_2_alg».proof.Proof.Gen.Kernel.Loops
import proofs.«166694_j6347961664093_2_alg».proof.Proof.Gen.Kernel.Launch
import proofs.«166694_j6347961664093_2_alg».proof.Proof.Gen.Kernel.Points
import proofs.«166694_j6347961664093_2_alg».proof.Proof.Gen.Kernel.Frame
import proofs.«166694_j6347961664093_2_alg».proof.Proof.Gen.KernelIdeal
import proofs.«166694_j6347961664093_2_alg».proof.Proof.Gen.KernelIdeal.Skeleton
import proofs.«166694_j6347961664093_2_alg».proof.Proof.Gen.KernelIdeal.Loops
import proofs.«166694_j6347961664093_2_alg».proof.Proof.Gen.KernelIdeal.Launch
import proofs.«166694_j6347961664093_2_alg».proof.Proof.Gen.KernelIdeal.Points
import proofs.«166694_j6347961664093_2_alg».proof.Proof.Gen.KernelIdeal.Frame
import proofs.«166694_j6347961664093_2_alg».proof.Proof.Gen.ReferenceIdeal
import proofs.«166694_j6347961664093_2_alg».proof.Proof.Gen.Pre_finite_inputs
import proofs.«166694_j6347961664093_2_alg».proof.Proof.Gen.ReferenceIdeal.Run
import proofs.«166694_j6347961664093_2_alg».proof.Proof.Gen.ReferenceIdeal.Read
import proofs.«166694_j6347961664093_2_alg».proof.Proof.KernelArray
import proofs.«166694_j6347961664093_2_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the one function of the arguments, which agree. -/
theorem algebraic : Cert.algebraic_KernelIdeal_ReferenceIdeal := by
  intro m ρ m' ρ' _ hagree
  refine ⟨fun c => Cert.Mixer.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.ReferenceIdeal.Read.val_main_v25 (F := Ideal) (m ((c.tc : Thread Cert.KernelIdeal.nD Cert.KernelIdeal.τ).loc Cert.KernelIdeal.main_arg3))) (m ((c.tc : Thread Cert.KernelIdeal.nD Cert.KernelIdeal.τ).loc Cert.KernelIdeal.main_arg4))
      (Cert.ReferenceIdeal.Read.val_main_v26 (F := Ideal) (m ((c.tc : Thread Cert.KernelIdeal.nD Cert.KernelIdeal.τ).loc Cert.KernelIdeal.main_arg5))) (m ((c.tc : Thread Cert.KernelIdeal.nD Cert.KernelIdeal.τ).loc Cert.KernelIdeal.main_arg6)),
    Cert.Mixer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.Mixer.Ref.ref_result, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
